-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x96 : Shape := ⟨2, ![100000, 96]⟩
abbrev S1600000x32 : Shape := ⟨2, ![1600000, 32]⟩
abbrev S2x1600000 : Shape := ⟨2, ![2, 1600000]⟩
abbrev S100000 : Shape := ⟨1, ![100000]⟩
abbrev S16x128 : Shape := ⟨2, ![16, 128]⟩
abbrev S16 : Shape := ⟨1, ![16]⟩
abbrev S1x16 : Shape := ⟨2, ![1, 16]⟩
abbrev S1 : Shape := ⟨1, ![1]⟩
abbrev S_ : Shape := ⟨0, ![]⟩

class Facts : Prop where
  bcast_S_S100000x96 : S_.BroadcastsInDim S100000x96 (![] : Fin 0 → Fin S100000x96.rank)
  reducesTo_S100000x96_S_d0_1 : S100000x96.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S16x128 : S_.BroadcastsInDim S16x128 (![] : Fin 0 → Fin S16x128.rank)
  reducesTo_S16x128_S_d0_1 : S16x128.ReducesTo [0, 1] S_
  bcast_S_S16 : S_.BroadcastsInDim S16 (![] : Fin 0 → Fin S16.rank)
  reducesTo_S16_S_d0 : S16.ReducesTo [0] S_
  bcast_S_S1x16 : S_.BroadcastsInDim S1x16 (![] : Fin 0 → Fin S1x16.rank)
  reducesTo_S1x16_S_d0_1 : S1x16.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S16 .f32) (main_arg10 : FVec F S1x16 .f32) (main_arg11 : FVec F S1 .f32) (main_v33 : IVec S_ 1) : IVec S_ 1 :=
  let main_v34 : FVec F S16 .f32 := Host.absf main_arg9
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S1x16 .f32 := Host.absf main_arg10
  let main_cst_14 : FVec F S_ .f32 := constant S_ .f32 0x7F800000#32
  let main_v40 : FVec F S1x16 .f32 := broadcastInDim S1x16 ![] bcast_S_S1x16 main_cst_14
  let main_v41 : IVec S1x16 1 := cmpf .olt main_v39 main_v40
  let main_c_15 : IVec S_ 1 := constantI S_ 1 1#1
  let main_v42 : IVec S_ 1 := (fun x v => Host.reduce IntOp.andi x v reducesTo_S1x16_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg6 : FVec F S16 .f32) (main_arg7 : FVec F S16 .f32) (main_arg8 : FVec F S16 .f32) (main_arg9 : FVec F S16 .f32) (main_arg10 : FVec F S1x16 .f32) (main_arg11 : FVec F S1 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16 .f32 := Host.absf main_arg7
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg9 main_arg10 main_arg11 main_v33

def fn {F : FTy → Type} [FloatOps F] (main_arg0 : FVec F S100000x96 .f32) (main_arg1 : FVec F S1600000x32 .f32) (main_arg2 : IVec S2x1600000 32) (main_arg3 : IVec S100000 32) (main_arg4 : FVec F S16x128 .f32) (main_arg5 : FVec F S16 .f32) (main_arg6 : FVec F S16 .f32) (main_arg7 : FVec F S16 .f32) (main_arg8 : FVec F S16 .f32) (main_arg9 : FVec F S16 .f32) (main_arg10 : FVec F S1x16 .f32) (main_arg11 : FVec F S1 .f32) : IVec S_ 1 :=
  let main_v0 : FVec F S100000x96 .f32 := Host.absf main_arg0
  let main_cst : FVec F S_ .f32 := constant S_ .f32 0x7F800000#32
  let main_v1 : FVec F S100000x96 .f32 := broadcastInDim S100000x96 ![] bcast_S_S100000x96 main_cst
  let main_v2 : IVec S100000x96 1 := cmpf .olt main_v0 main_v1
  let main_c : IVec S_ 1 := constantI S_ 1 1#1
  let main_v3 : IVec S_ 1 := (fun x v => Host.reduce IntOp.andi x v reducesTo_S100000x96_S_d0_1 h_S_) main_v2 main_c
  let main_v4 : FVec F S1600000x32 .f32 := Host.absf main_arg1
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S16x128 .f32 := Host.absf main_arg4
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S16 .f32 := Host.absf main_arg5
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg6 main_arg7 main_arg8 main_arg9 main_arg10 main_arg11 main_v13 main_v16
-- ==== Kernel.lean ====
abbrev S100000x96 : Shape := ⟨2, ![100000, 96]⟩
abbrev S1600000x32 : Shape := ⟨2, ![1600000, 32]⟩
abbrev S2x1600000 : Shape := ⟨2, ![2, 1600000]⟩
abbrev S100000 : Shape := ⟨1, ![100000]⟩
abbrev S16x128 : Shape := ⟨2, ![16, 128]⟩
abbrev S16 : Shape := ⟨1, ![16]⟩
abbrev S1x16 : Shape := ⟨2, ![1, 16]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x96 : Shape := ⟨2, ![1600000, 96]⟩
abbrev S5000x96 : Shape := ⟨2, ![5000, 96]⟩
abbrev S5000x32 : Shape := ⟨2, ![5000, 32]⟩
abbrev S5000x1 : Shape := ⟨2, ![5000, 1]⟩
abbrev S5000x128 : Shape := ⟨2, ![5000, 128]⟩
abbrev S128x16 : Shape := ⟨2, ![128, 16]⟩
abbrev S5000x16 : Shape := ⟨2, ![5000, 16]⟩
abbrev S16x1 : Shape := ⟨2, ![16, 1]⟩
abbrev S1x1 : Shape := ⟨2, ![1, 1]⟩
abbrev S128 : Shape := ⟨1, ![128]⟩
abbrev S100000x1 : Shape := ⟨2, ![100000, 1]⟩

abbrev nBuf : Space → Nat
  | .hbm => 35
  | .vmem => 14
  | .smem => 0
  | _ => 0

abbrev bufTy : (tb : Table) → Fin (tcTables nBuf tb) → BufTy
  | .hbm, ⟨0, _⟩ => ⟨S100000x96, .f32⟩
  | .hbm, ⟨1, _⟩ => ⟨S1600000x32, .f32⟩
  | .hbm, ⟨2, _⟩ => ⟨S2x1600000, .i32⟩
  | .hbm, ⟨3, _⟩ => ⟨S100000, .i32⟩
  | .hbm, ⟨4, _⟩ => ⟨S16x128, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S1x16, .f32⟩
  | .hbm, ⟨11, _⟩ => ⟨S1, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x96, .f32⟩
  | .hbm, ⟨25, _⟩ => ⟨S1600000x1, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S128, .f32⟩
  | .hbm, ⟨33, _⟩ => ⟨S100000x1, .i32⟩
  | .hbm, ⟨34, _⟩ => ⟨S128, .f32⟩
  | .local _ .vmem, ⟨0, _⟩ => ⟨S5000x96, .f32⟩
  | .local _ .vmem, ⟨1, _⟩ => ⟨S5000x96, .f32⟩
  | .local _ .vmem, ⟨2, _⟩ => ⟨S5000x32, .f32⟩
  | .local _ .vmem, ⟨3, _⟩ => ⟨S5000x32, .f32⟩
  | .local _ .vmem, ⟨4, _⟩ => ⟨S16x128, .f32⟩
  | .local _ .vmem, ⟨5, _⟩ => ⟨S16, .f32⟩
  | .local _ .vmem, ⟨6, _⟩ => ⟨S16, .f32⟩
  | .local _ .vmem, ⟨7, _⟩ => ⟨S16, .f32⟩
  | .local _ .vmem, ⟨8, _⟩ => ⟨S16, .f32⟩
  | .local _ .vmem, ⟨9, _⟩ => ⟨S16, .f32⟩
  | .local _ .vmem, ⟨10, _⟩ => ⟨S1x16, .f32⟩
  | .local _ .vmem, ⟨11, _⟩ => ⟨S1, .f32⟩
  | .local _ .vmem, ⟨12, _⟩ => ⟨S5000x1, .f32⟩
  | .local _ .vmem, ⟨13, _⟩ => ⟨S5000x1, .f32⟩
  | _, _ => ⟨S100000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![320], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  inb_S5000x32_S5000x32_0_0 : ∀ a, (![0, 0] : Fin 2 → Nat) a + S5000x32.size a ≤ S5000x32.size a
  h_S5000x32 : 0 < S5000x32.numel
  concatenates_S5000x96_S5000x32_S5000x128_d1 : Shape.Concatenates [S5000x96, S5000x32] S5000x128 1
  inb_S16x128_S16x128_0_0 : ∀ a, (![0, 0] : Fin 2 → Nat) a + S16x128.size a ≤ S16x128.size a
  h_S16x128 : 0 < S16x128.numel
  bitsLt_bf16_f32 : FTy.bits .bf16 < FTy.bits .f32
  transposes_S16x128_p1_0_S128x16 : S16x128.Transposes [1, 0] S128x16
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  inb_S1x16_S1x16_0_0 : ∀ a, (![0, 0] : Fin 2 → Nat) a + S1x16.size a ≤ S1x16.size a
  h_S1x16 : 0 < S1x16.numel
  transposes_S1x16_p1_0_S16x1 : S1x16.Transposes [1, 0] S16x1
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S1600000x1_S1600000 : S1600000x1.ShapeCasts S1600000
  bcast_S_S100000 : S_.BroadcastsInDim S100000 (![] : Fin 0 → Fin S100000.rank)
  bcast_S_S128 : S_.BroadcastsInDim S128 (![] : Fin 0 → Fin S128.rank)
  bcast_S100000_S100000x1_0 : S100000.BroadcastsInDim S100000x1 (![0] : Fin 1 → Fin S100000x1.rank)
  gather_S100000x96_S1600000x1_S1600000x96_1_0_n_n_0_1_196_wf : GatherDims.WF S100000x96 S1600000x1 S1600000x96 [1] [0] [] [0] [] 1 ![1, 96]
  dot_S5000x128_S128x16_S5000x16_1_0_0_1_n_n_wf : DotDims.WF S5000x128 S128x16 S5000x16 [1] [0] [0] [1] [] []
  dot_S5000x16_S16x1_S5000x1_1_0_0_1_n_n_wf : DotDims.WF S5000x16 S16x1 S5000x1 [1] [0] [0] [1] [] []
  scatter_S100000_S1600000x1_S1600000_n_0_0_1_wf : ScatterDims.WF S100000 S1600000x1 S1600000 [] [0] [0] 1
  scatter_S128_S100000x1_S100000_n_0_0_1_wf : ScatterDims.WF S128 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S1600000x96.size a
  hwx0_0 : ∀ i : grid0.Coords, EltTy.bits .f32 = 32 ∨ (Rect.block (s := S1600000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S1600000x32.size a
  hwx0_1 : ∀ i : grid0.Coords, EltTy.bits .f32 = 32 ∨ (Rect.block (s := S1600000x32) S5000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S16x128.size a
  hwx0_2 : ∀ i : grid0.Coords, EltTy.bits .f32 = 32 ∨ (Rect.block (s := S16x128) S16x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16.size a ≤ S16.size a
  hwx0_3 : ∀ i : grid0.Coords, EltTy.bits .f32 = 32 ∨ (Rect.block (s := S16) S16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16.size a ≤ S16.size a
  hwx0_4 : ∀ i : grid0.Coords, EltTy.bits .f32 = 32 ∨ (Rect.block (s := S16) S16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16.size a ≤ S16.size a
  hwx0_5 : ∀ i : grid0.Coords, EltTy.bits .f32 = 32 ∨ (Rect.block (s := S16) S16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16.size a ≤ S16.size a
  hwx0_6 : ∀ i : grid0.Coords, EltTy.bits .f32 = 32 ∨ (Rect.block (s := S16) S16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16.size a ≤ S16.size a
  hwx0_7 : ∀ i : grid0.Coords, EltTy.bits .f32 = 32 ∨ (Rect.block (s := S16) S16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x16.size a ≤ S1x16.size a
  hwx0_8 : ∀ i : grid0.Coords, EltTy.bits .f32 = 32 ∨ (Rect.block (s := S1x16) S1x16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1.size a ≤ S1.size a
  hwx0_9 : ∀ i : grid0.Coords, EltTy.bits .f32 = 32 ∨ (Rect.block (s := S1) S1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x1.size a ≤ S1600000x1.size a
  hwx0_10 : ∀ i : grid0.Coords, EltTy.bits .f32 = 32 ∨ (Rect.block (s := S1600000x1) S5000x1.size (cc0_transform_10 i) (hinb0_10 i)).WholeWords (EltTy.packing .f32)

variable [Facts₀]

def gather_S100000x96_S1600000x1_S1600000x96_1_0_n_n_0_1_196 : GatherDims S100000x96 S1600000x1 S1600000x96 where
  offsetDims := [1]
  collapsedSliceDims := [0]
  operandBatchingDims := []
  startIndicesBatchingDims := []
  startIndexMap := [0]
  indexVectorDim := 1
  sliceSizes := ![1, 96]
  wf := gather_S100000x96_S1600000x1_S1600000x96_1_0_n_n_0_1_196_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def dot_S5000x16_S16x1_S5000x1_1_0_0_1_n_n : DotDims S5000x16 S16x1 S5000x1 where
  lhsContracting := [1]
  rhsContracting := [0]
  lhsNonContracting := [0]
  rhsNonContracting := [1]
  lhsBatch := []
  rhsBatch := []
  wf := dot_S5000x16_S16x1_S5000x1_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf

abbrev win0_0 : Pipeline.Window sig grid0 :=
  Pipeline.Window.ofSpec (Memref.whole main_v10) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S16x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S1x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S5000x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S100000x96 : Shape := ⟨2, ![100000, 96]⟩
abbrev S1600000x32 : Shape := ⟨2, ![1600000, 32]⟩
abbrev S2x1600000 : Shape := ⟨2, ![2, 1600000]⟩
abbrev S100000 : Shape := ⟨1, ![100000]⟩
abbrev S16x128 : Shape := ⟨2, ![16, 128]⟩
abbrev S16 : Shape := ⟨1, ![16]⟩
abbrev S1x16 : Shape := ⟨2, ![1, 16]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x96 : Shape := ⟨2, ![1600000, 96]⟩
abbrev S1600000x128 : Shape := ⟨2, ![1600000, 128]⟩
abbrev S128x16 : Shape := ⟨2, ![128, 16]⟩
abbrev S1600000x16 : Shape := ⟨2, ![1600000, 16]⟩
abbrev S16x1 : Shape := ⟨2, ![16, 1]⟩
abbrev S1x1 : Shape := ⟨2, ![1, 1]⟩
abbrev S100000x1 : Shape := ⟨2, ![100000, 1]⟩
abbrev S128x1 : Shape := ⟨2, ![128, 1]⟩
abbrev S128 : Shape := ⟨1, ![128]⟩

abbrev nBuf : Space → Nat
  | .hbm => 68
  | .vmem => 0
  | .smem => 0
  | _ => 0

abbrev bufTy : (tb : Table) → Fin (tcTables nBuf tb) → BufTy
  | .hbm, ⟨0, _⟩ => ⟨S100000x96, .f32⟩
  | .hbm, ⟨1, _⟩ => ⟨S1600000x32, .f32⟩
  | .hbm, ⟨2, _⟩ => ⟨S2x1600000, .i32⟩
  | .hbm, ⟨3, _⟩ => ⟨S100000, .i32⟩
  | .hbm, ⟨4, _⟩ => ⟨S16x128, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S1x16, .f32⟩
  | .hbm, ⟨11, _⟩ => ⟨S1, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x96, .f32⟩
  | .hbm, ⟨25, _⟩ => ⟨S1600000x128, .f32⟩
  | .hbm, ⟨26, _⟩ => ⟨S128x16, .f32⟩
  | .hbm, ⟨27, _⟩ => ⟨S1600000x16, .f32⟩
  | .hbm, ⟨28, _⟩ => ⟨S1x16, .f32⟩
  | .hbm, ⟨29, _⟩ => ⟨S1600000x16, .f32⟩
  | .hbm, ⟨30, _⟩ => ⟨S1600000x16, .f32⟩
  | .hbm, ⟨31, _⟩ => ⟨S1x16, .f32⟩
  | .hbm, ⟨32, _⟩ => ⟨S1600000x16, .f32⟩
  | .hbm, ⟨33, _⟩ => ⟨S1600000x16, .f32⟩
  | .hbm, ⟨34, _⟩ => ⟨S1x16, .f32⟩
  | .hbm, ⟨35, _⟩ => ⟨S1600000x16, .f32⟩
  | .hbm, ⟨36, _⟩ => ⟨S1600000x16, .f32⟩
  | .hbm, ⟨37, _⟩ => ⟨S_, .f32⟩
  | .hbm, ⟨38, _⟩ => ⟨S16, .f32⟩
  | .hbm, ⟨39, _⟩ => ⟨S16, .f32⟩
  | .hbm, ⟨40, _⟩ => ⟨S16, .f32⟩
  | .hbm, ⟨41, _⟩ => ⟨S1x16, .f32⟩
  | .hbm, ⟨42, _⟩ => ⟨S1600000x16, .f32⟩
  | .hbm, ⟨43, _⟩ => ⟨S1600000x16, .f32⟩
  | .hbm, ⟨44, _⟩ => ⟨S1x16, .f32⟩
  | .hbm, ⟨45, _⟩ => ⟨S1600000x16, .f32⟩
  | .hbm, ⟨46, _⟩ => ⟨S1600000x16, .f32⟩
  | .hbm, ⟨47, _⟩ => ⟨S_, .f32⟩
  | .hbm, ⟨48, _⟩ => ⟨S1600000x16, .f32⟩
  | .hbm, ⟨49, _⟩ => ⟨S1600000x16, .f32⟩
  | .hbm, ⟨50, _⟩ => ⟨S16x1, .f32⟩
  | .hbm, ⟨51, _⟩ => ⟨S1600000x1, .f32⟩
  | .hbm, ⟨52, _⟩ => ⟨S1x1, .f32⟩
  | .hbm, ⟨53, _⟩ => ⟨S1600000x1, .f32⟩
  | .hbm, ⟨54, _⟩ => ⟨S1600000x1, .f32⟩
  | .hbm, ⟨55, _⟩ => ⟨S_, .f32⟩
  | .hbm, ⟨56, _⟩ => ⟨S100000x1, .f32⟩
  | .hbm, ⟨57, _⟩ => ⟨S1600000x1, .i32⟩
  | .hbm, ⟨58, _⟩ => ⟨S100000x1, .f32⟩
  | .hbm, ⟨59, _⟩ => ⟨S_, .f32⟩
  | .hbm, ⟨60, _⟩ => ⟨S128x1, .f32⟩
  | .hbm, ⟨61, _⟩ => ⟨S100000x1, .i32⟩
  | .hbm, ⟨62, _⟩ => ⟨S128x1, .f32⟩
  | .hbm, ⟨63, _⟩ => ⟨S_, .f32⟩
  | .hbm, ⟨64, _⟩ => ⟨S128, .f32⟩
  | .hbm, ⟨65, _⟩ => ⟨S_, .f32⟩
  | .hbm, ⟨66, _⟩ => ⟨S128, .f32⟩
  | .hbm, ⟨67, _⟩ => ⟨S128, .f32⟩
  | _, _ => ⟨S100000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call0_cst : Ref sig .tc := ⟨.hbm, 47, rfl⟩
abbrev main_call0_v0 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_1 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_2 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_3 : Ref sig .tc := ⟨.hbm, 63, rfl⟩
abbrev main_v44 : Ref sig .tc := ⟨.hbm, 64, rfl⟩
abbrev main_cst_4 : Ref sig .tc := ⟨.hbm, 65, rfl⟩
abbrev main_v45 : Ref sig .tc := ⟨.hbm, 66, rfl⟩
abbrev main_v46 : Ref sig .tc := ⟨.hbm, 67, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x96_S1600000x32_S1600000x128_d1 : Shape.Concatenates [S1600000x96, S1600000x32] S1600000x128 1
  transposes_S16x128_S128x16_1_0 : S16x128.Transposes [1, 0] S128x16
  bcast_S16_S1x16_1 : S16.BroadcastsInDim S1x16 (![1] : Fin 1 → Fin S1x16.rank)
  bcast_S1x16_S1600000x16_0_1 : S1x16.BroadcastsInDim S1600000x16 (![0, 1] : Fin 2 → Fin S1600000x16.rank)
  bcast_S_S16 : S_.BroadcastsInDim S16 (![] : Fin 0 → Fin S16.rank)
  bcast_S_S1600000x16 : S_.BroadcastsInDim S1600000x16 (![] : Fin 0 → Fin S1600000x16.rank)
  transposes_S1x16_S16x1_1_0 : S1x16.Transposes [1, 0] S16x1
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S_S100000x1 : S_.BroadcastsInDim S100000x1 (![] : Fin 0 → Fin S100000x1.rank)
  bcast_S_S128x1 : S_.BroadcastsInDim S128x1 (![] : Fin 0 → Fin S128x1.rank)
  bcast_S100000_S100000x1_0 : S100000.BroadcastsInDim S100000x1 (![0] : Fin 1 → Fin S100000x1.rank)
  reducesTo_S128x1_S128_d1 : S128x1.ReducesTo [1] S128
  h_S_ : 0 < S_.numel
  bcast_S_S128 : S_.BroadcastsInDim S128 (![] : Fin 0 → Fin S128.rank)
  gather_S100000x96_S1600000x1_S1600000x96_1_0_n_n_0_1_196_wf : GatherDims.WF S100000x96 S1600000x1 S1600000x96 [1] [0] [] [0] [] 1 ![1, 96]
  dot_S1600000x128_S128x16_S1600000x16_1_0_0_1_n_n_wf : DotDims.WF S1600000x128 S128x16 S1600000x16 [1] [0] [0] [1] [] []
  dot_S1600000x16_S16x1_S1600000x1_1_0_0_1_n_n_wf : DotDims.WF S1600000x16 S16x1 S1600000x1 [1] [0] [0] [1] [] []
  scatter_S100000x1_S1600000x1_S1600000x1_1_0_0_1_wf : ScatterDims.WF S100000x1 S1600000x1 S1600000x1 [1] [0] [0] 1
  scatter_S128x1_S100000x1_S100000x1_1_0_0_1_wf : ScatterDims.WF S128x1 S100000x1 S100000x1 [1] [0] [0] 1

variable [Facts₀]

def gather_S100000x96_S1600000x1_S1600000x96_1_0_n_n_0_1_196 : GatherDims S100000x96 S1600000x1 S1600000x96 where
  offsetDims := [1]
  collapsedSliceDims := [0]
  operandBatchingDims := []
  startIndicesBatchingDims := []
  startIndexMap := [0]
  indexVectorDim := 1
  sliceSizes := ![1, 96]
  wf := gather_S100000x96_S1600000x1_S1600000x96_1_0_n_n_0_1_196_wf
def dot_S1600000x128_S128x16_S1600000x16_1_0_0_1_n_n : DotDims S1600000x128 S128x16 S1600000x16 where
  lhsContracting := [1]
  rhsContracting := [0]
  lhsNonContracting := [0]
  rhsNonContracting := [1]
  lhsBatch := []
  rhsBatch := []
  wf := dot_S1600000x128_S128x16_S1600000x16_1_0_0_1_n_n_wf
def dot_S1600000x16_S16x1_S1600000x1_1_0_0_1_n_n : DotDims S1600000x16 S16x1 S1600000x1 where
  lhsContracting := [1]
  rhsContracting := [0]
  lhsNonContracting := [0]
  rhsNonContracting := [1]
  lhsBatch := []
  rhsBatch := []
  wf := dot_S1600000x16_S16x1_S1600000x1_1_0_0_1_n_n_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def scatter_S128x1_S100000x1_S100000x1_1_0_0_1 : ScatterDims S128x1 S100000x1 S100000x1 where
  updateWindowDims := [1]
  insertedWindowDims := [0]
  scatterDimsToOperandDims := [0]
  indexVectorDim := 1
  wf := scatter_S128x1_S100000x1_S100000x1_1_0_0_1_wf

class Facts : Prop extends Facts₀ where

variable [Facts]
-- ==== Proof.EdgeRow.lean ====
/-
  One edge's message, as a function of the edge's row of inputs. The inputs of an edge are the 96 features of its
  source node followed by the edge's own 32 attributes: a row c of 128 numbers. The message is a two-layer perceptron
  of that row with a normalisation in the middle:

    z_j   = (sum over k < 128 of c_k * W1[j, k]) + b1_j                          (16 hidden units)
    h_j   = max (gamma_j * (z_j - mean_j) * rsqrt (var_j + eps) + beta_j, 0)
    msg   = (sum over j < 16 of h_j * W2[0, j]) + b2_0

  over the extended reals, every operation the exact one, eps the number the word 0x3727C5AC denotes and the 0 of the
  maximum the number the zero word denotes (neither is ever evaluated: the same words stand on both sides). Also here:
  a row of a concatenation along the second axis of a matrix with 96 columns and one with 32 columns is the
  concatenation of the two rows, whatever the number of rows.
-/
import Idealize.ShloMosaic.Lib.ValueIdx
import Idealize.ShloMosaic.Lib.Pipeline.Value
import Idealize.ShloMosaic.PureOps.Ideal.Laws

noncomputable section

namespace Cert.EdgeRow

open Idealize.ShloMosaic Idealize.ShloMosaic.ValueIdx
open scoped BigOperators

/-- A row of 96 numbers followed by a row of 32 numbers: position k reads the first row when k < 96 and the second
    row at k - 96 otherwise. -/
def catRow (xr : Fin 96 → EReal) (er : Fin 32 → EReal) (k : Fin 128) : EReal :=
  if h : k.val < 96 then xr ⟨k.val, h⟩ else er ⟨k.val - 96, by have := k.isLt; omega⟩

/-- Row r of the concatenation along the columns of an [R, 96] and an [R, 32] matrix is the concatenation of their
    rows r: a column below 96 falls in the first piece, at the same coordinates; a column from 96 on falls in the
    second piece, 96 columns to the left. -/
theorem concatenate_row_apply {R : ℕ} (a : (⟨2, ![R, 96]⟩ : Shape).Idx → EReal) (b : (⟨2, ![R, 32]⟩ : Shape).Idx → EReal)
    (h : Shape.Concatenates [(⟨2, ![R, 96]⟩ : Shape), (⟨2, ![R, 32]⟩ : Shape)] ⟨2, ![R, 128]⟩ 1) (r : Fin R) (k : Fin 128) :
    concatenate ⟨2, ![R, 128]⟩ 1 [⟨⟨2, ![R, 96]⟩, a⟩, ⟨⟨2, ![R, 32]⟩, b⟩] h (ix2 r k)
      = catRow (fun k' => a (ix2 r k')) (fun k' => b (ix2 r k')) k := by
  unfold catRow
  by_cases hk : k.val < 96
  · rw [dif_pos hk]
    exact concatenate_pair_apply_left 1 a b h (ix2 r k) rfl (ix2 r ⟨k.val, hk⟩)
      (fun c => match c with | ⟨0, _⟩ => rfl | ⟨1, _⟩ => rfl)
  · rw [dif_neg hk]
    have hk' : k.val - 96 < 32 := by have := k.isLt; omega
    exact concatenate_pair_apply_right 1 a b h (ix2 r k) rfl rfl (ix2 r ⟨k.val - 96, hk'⟩)
      (fun c hc => match c, hc with
        | ⟨0, _⟩, _ => rfl
        | ⟨1, _⟩, hc => absurd rfl hc)
      (by show (k.val - 96) + 96 = k.val; omega)

/-- The number added to the variance before the reciprocal square root. -/
abbrev eps : EReal := Ideal.ofBits .f32 0x3727C5AC#32
/-- The number the activation is cut off at from below. -/
abbrev floor0 : EReal := Ideal.ofBits .f32 0x00000000#32

/-- Hidden unit j of the edge whose input row is c: the first layer, normalised with the running statistics, scaled
    and shifted, and cut off at zero from below. -/
def hiddenUnit (c : Fin 128 → EReal) (W1 : (⟨2, ![16, 128]⟩ : Shape).Idx → EReal)
    (b1 g be mu va : (⟨1, ![16]⟩ : Shape).Idx → EReal) (j : Fin 16) : EReal :=
  max (g (ix1 j) * ((∑ k : Fin 128, c k * W1 (ix2 j k)) + b1 (ix1 j) - mu (ix1 j)) * Ideal.rsqrt (va (ix1 j) + eps)
    + be (ix1 j)) floor0

/-- The message of the edge whose input row is c: the second layer over the 16 hidden units. -/
def rowMsg (c : Fin 128 → EReal) (W1 : (⟨2, ![16, 128]⟩ : Shape).Idx → EReal)
    (b1 g be mu va : (⟨1, ![16]⟩ : Shape).Idx → EReal) (W2 : (⟨2, ![1, 16]⟩ : Shape).Idx → EReal)
    (b2 : (⟨1, ![1]⟩ : Shape).Idx → EReal) : EReal :=
  (∑ j : Fin 16, hiddenUnit c W1 b1 g be mu va j * W2 (ix2 (0 : Fin 1) j)) + b2 (ix1 (0 : Fin 1))

/-- The message of edge e of the whole graph: of the input row that is row e of the gathered source features followed
    by row e of the edge attributes. -/
def msgOf (xg : (⟨2, ![1600000, 96]⟩ : Shape).Idx → EReal) (ea : (⟨2, ![1600000, 32]⟩ : Shape).Idx → EReal)
    (W1 : (⟨2, ![16, 128]⟩ : Shape).Idx → EReal) (b1 g be mu va : (⟨1, ![16]⟩ : Shape).Idx → EReal)
    (W2 : (⟨2, ![1, 16]⟩ : Shape).Idx → EReal) (b2 : (⟨1, ![1]⟩ : Shape).Idx → EReal) (e : Fin 1600000) : EReal :=
  rowMsg (catRow (fun k => xg (ix2 e k)) (fun k => ea (ix2 e k))) W1 b1 g be mu va W2 b2

end Cert.EdgeRow
-- ==== Proof.KernelRow.lean ====
/-
  The kernel body's result at one row. The body works on a block of 5000 edges: it loads the block's gathered source
  rows [5000, 96] and attribute rows [5000, 32] and the whole parameters, joins the two row blocks along the columns,
  multiplies by the transposed first-layer weights into a zero accumulator, adds the bias row, normalises with the
  running statistics, cuts off at zero, multiplies by the transposed second-layer weights into a zero accumulator and
  adds the second bias. None of these operations mixes rows, so row p of the stored [5000, 1] block is the message of
  the input row that is row p of the first block followed by row p of the second.
-/
import proofs.«143738_j47880295416471_1_alg».proof.Proof.Gen.KernelIdeal.Skeleton
import proofs.«143738_j47880295416471_1_alg».proof.Proof.EdgeRow
import Idealize.ShloMosaic.Lib.ValueLayout

noncomputable section

namespace Cert.KernelRow

open Cert.KernelIdeal Cert.KernelIdeal.Gen Idealize.ShloMosaic Idealize.ShloMosaic.ValueIdx Cert.EdgeRow
open scoped BigOperators

/-- A product of an [M, K] by a [K, N] matrix accumulated into zeros, at (r, c), is the textbook sum over the
    contracted position k of lhs (r, k) * rhs (k, c): the contraction has one axis, of extent K, and the dimension
    numbers send output row and column to the operands' free axes and the contraction position to the other two. -/
theorem matmul_zero_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (j : (⟨2, ![M, N]⟩ : Shape).Idx) (q : d.contr.Idx), (d.lhsIdx j q 0).val = (j 0).val)
    (hl1 : ∀ (j : (⟨2, ![M, N]⟩ : Shape).Idx) (q : d.contr.Idx), (d.lhsIdx j q 1).val = (q ⟨0, by omega⟩).val)
    (hr0 : ∀ (j : (⟨2, ![M, N]⟩ : Shape).Idx) (q : d.contr.Idx), (d.rhsIdx j q 0).val = (q ⟨0, by omega⟩).val)
    (hr1 : ∀ (j : (⟨2, ![M, N]⟩ : Shape).Idx) (q : d.contr.Idx), (d.rhsIdx j q 1).val = (j 1).val)
    (lhs : FVec Ideal ⟨2, ![M, K]⟩ φ₁) (rhs : FVec Ideal ⟨2, ![K, N]⟩ φ₂) (r : Fin M) (c : Fin N) :
    matmul d none lhs rhs (constant (F := Ideal) ⟨2, ![M, N]⟩ .f32 0x00000000#32) (ix2 r c)
      = ∑ k : Fin K, lhs (ix2 r k) * rhs (ix2 k c) := by
  refine (Ideal.matmul_constant_zero_apply d none lhs rhs (ix2 r c)).trans ?_
  rw [← Equiv.sum_comp (contrEquiv1 d K hr hs).symm]
  refine Finset.sum_congr rfl fun k _ => ?_
  have hk := contrEquiv1_symm_val d K hr hs k
  have el : d.lhsIdx (ix2 r c) ((contrEquiv1 d K hr hs).symm k) = ix2 r k := funext fun a => Fin.ext (by
    match a with
    | ⟨0, _⟩ => exact hl0 _ _
    | ⟨1, _⟩ => exact (hl1 _ _).trans hk)
  have er : d.rhsIdx (ix2 r c) ((contrEquiv1 d K hr hs).symm k) = ix2 k c := funext fun a => Fin.ext (by
    match a with
    | ⟨0, _⟩ => exact (hr0 _ _).trans hk
    | ⟨1, _⟩ => exact hr1 _ _)
  rw [el, er]

/-! The two products' dimension numbers: output row to the left operand's row, output column to the right operand's
    column, the contraction position to the left operand's column and the right operand's row. -/

theorem first_l0 (j : S5000x16.Idx) (q : dot_S5000x128_S128x16_S5000x16_1_0_0_1_n_n.contr.Idx) :
    (dot_S5000x128_S128x16_S5000x16_1_0_0_1_n_n.lhsIdx j q 0).val = (j 0).val := by
  unfold DotDims.lhsIdx
  rw [dif_neg (show ¬(0 : Fin S5000x128.rank) ∈ dot_S5000x128_S128x16_S5000x16_1_0_0_1_n_n.lhsBatch by decide),
    dif_pos (show (0 : Fin S5000x128.rank) ∈ dot_S5000x128_S128x16_S5000x16_1_0_0_1_n_n.lhsNonContracting by decide)]
  rfl
theorem first_l1 (j : S5000x16.Idx) (q : dot_S5000x128_S128x16_S5000x16_1_0_0_1_n_n.contr.Idx) :
    (dot_S5000x128_S128x16_S5000x16_1_0_0_1_n_n.lhsIdx j q 1).val = (q ⟨0, by decide⟩).val :=
  dot_S5000x128_S128x16_S5000x16_1_0_0_1_n_n.lhsIdx_val_of_single rfl j q
theorem first_r0 (j : S5000x16.Idx) (q : dot_S5000x128_S128x16_S5000x16_1_0_0_1_n_n.contr.Idx) :
    (dot_S5000x128_S128x16_S5000x16_1_0_0_1_n_n.rhsIdx j q 0).val = (q ⟨0, by decide⟩).val :=
  dot_S5000x128_S128x16_S5000x16_1_0_0_1_n_n.rhsIdx_val_of_single rfl j q
theorem first_r1 (j : S5000x16.Idx) (q : dot_S5000x128_S128x16_S5000x16_1_0_0_1_n_n.contr.Idx) :
    (dot_S5000x128_S128x16_S5000x16_1_0_0_1_n_n.rhsIdx j q 1).val = (j 1).val := by
  unfold DotDims.rhsIdx
  rw [dif_neg (show ¬(1 : Fin S128x16.rank) ∈ dot_S5000x128_S128x16_S5000x16_1_0_0_1_n_n.rhsBatch by decide),
    dif_pos (show (1 : Fin S128x16.rank) ∈ dot_S5000x128_S128x16_S5000x16_1_0_0_1_n_n.rhsNonContracting by decide)]
  rfl

theorem second_l0 (j : S5000x1.Idx) (q : dot_S5000x16_S16x1_S5000x1_1_0_0_1_n_n.contr.Idx) :
    (dot_S5000x16_S16x1_S5000x1_1_0_0_1_n_n.lhsIdx j q 0).val = (j 0).val := by
  unfold DotDims.lhsIdx
  rw [dif_neg (show ¬(0 : Fin S5000x16.rank) ∈ dot_S5000x16_S16x1_S5000x1_1_0_0_1_n_n.lhsBatch by decide),
    dif_pos (show (0 : Fin S5000x16.rank) ∈ dot_S5000x16_S16x1_S5000x1_1_0_0_1_n_n.lhsNonContracting by decide)]
  rfl
theorem second_l1 (j : S5000x1.Idx) (q : dot_S5000x16_S16x1_S5000x1_1_0_0_1_n_n.contr.Idx) :
    (dot_S5000x16_S16x1_S5000x1_1_0_0_1_n_n.lhsIdx j q 1).val = (q ⟨0, by decide⟩).val :=
  dot_S5000x16_S16x1_S5000x1_1_0_0_1_n_n.lhsIdx_val_of_single rfl j q
theorem second_r0 (j : S5000x1.Idx) (q : dot_S5000x16_S16x1_S5000x1_1_0_0_1_n_n.contr.Idx) :
    (dot_S5000x16_S16x1_S5000x1_1_0_0_1_n_n.rhsIdx j q 0).val = (q ⟨0, by decide⟩).val :=
  dot_S5000x16_S16x1_S5000x1_1_0_0_1_n_n.rhsIdx_val_of_single rfl j q
theorem second_r1 (j : S5000x1.Idx) (q : dot_S5000x16_S16x1_S5000x1_1_0_0_1_n_n.contr.Idx) :
    (dot_S5000x16_S16x1_S5000x1_1_0_0_1_n_n.rhsIdx j q 1).val = (j 1).val := by
  unfold DotDims.rhsIdx
  rw [dif_neg (show ¬(1 : Fin S16x1.rank) ∈ dot_S5000x16_S16x1_S5000x1_1_0_0_1_n_n.rhsBatch by decide),
    dif_pos (show (1 : Fin S16x1.rank) ∈ dot_S5000x16_S16x1_S5000x1_1_0_0_1_n_n.rhsNonContracting by decide)]
  rfl

/-- A row of 16 numbers, given as a vector, made a one-row matrix and repeated down 5000 rows, at (p, j), is the
    vector's entry j. -/
theorem bias_row_apply (v : (⟨1, ![16]⟩ : Shape).Idx → EReal) (h₁ : (⟨1, ![16]⟩ : Shape).ShapeCasts ⟨2, ![1, 16]⟩)
    (h₂ : (⟨2, ![1, 16]⟩ : Shape).Broadcasts ⟨2, ![5000, 16]⟩) (p : Fin 5000) (j : Fin 16) :
    broadcastTo ⟨2, ![5000, 16]⟩ (shapeCast ⟨2, ![1, 16]⟩ v h₁) h₂ (ix2 p j) = v (ix1 j) :=
  (broadcastTo_1b_ab_apply _ h₂ p j).trans (shapeCast_a_1a_apply v h₁ 0 j)

/-- The one second-layer bias, made a one-by-one matrix and repeated down 5000 rows, at (p, 0), is that number. -/
theorem bias_one_apply (v : (⟨1, ![1]⟩ : Shape).Idx → EReal) (h₁ : (⟨1, ![1]⟩ : Shape).ShapeCasts ⟨2, ![1, 1]⟩)
    (h₂ : (⟨2, ![1, 1]⟩ : Shape).Broadcasts ⟨2, ![5000, 1]⟩) (p : Fin 5000) (u : Fin 1) :
    broadcastTo ⟨2, ![5000, 1]⟩ (shapeCast ⟨2, ![1, 1]⟩ v h₁) h₂ (ix2 p u) = v (ix1 (0 : Fin 1)) := by
  have hu : u = 0 := Fin.ext (by omega)
  subst hu
  exact (broadcastTo_1b_ab_apply _ h₂ p 0).trans (shapeCast_a_1a_apply v h₁ 0 0)

/-- Row p of what the body stores is the message of the row that is row p of the gathered block followed by row p
    of the attribute block. -/
theorem pay_apply (x0 : FVec Ideal S5000x96 .f32) (x1 : FVec Ideal S5000x32 .f32) (x2 : FVec Ideal S16x128 .f32)
    (x3 x4 x5 x6 x7 : FVec Ideal S16 .f32) (x8 : FVec Ideal S1x16 .f32) (x9 : FVec Ideal S1 .f32) (p : Fin 5000) :
    k0_pay1 (F := Ideal) (k0_pay2 (F := Ideal) x0 x1 x2 x3 x4 x5 x6 x7 x8) (k0_pay3 (F := Ideal) x9) (ix2 p (0 : Fin 1))
      = rowMsg (catRow (fun k => x0 (ix2 p k)) (fun k => x1 (ix2 p k))) x2 x3 x4 x5 x6 x7 x8 x9 := by
  unfold k0_pay1 k0_pay2 k0_pay3 rowMsg hiddenUnit
  dsimp only
  rw [addf_apply, bias_one_apply,
    matmul_zero_apply dot_S5000x16_S16x1_S5000x1_1_0_0_1_n_n rfl rfl second_l0 second_l1 second_r0 second_r1]
  refine congrArg (· + x9 (ix1 (0 : Fin 1))) (Finset.sum_congr rfl fun j _ => ?_)
  rw [transpose_ix2_apply, truncf_apply, truncf_apply, maximumf_apply, addf_apply, mulf_apply, mulf_apply, subf_apply, addf_apply,
    bias_row_apply, bias_row_apply, bias_row_apply, bias_row_apply, bias_row_apply, broadcast_apply,
    matmul_zero_apply dot_S5000x128_S128x16_S5000x16_1_0_0_1_n_n rfl rfl first_l0 first_l1 first_r0 first_r1]
  have hw : ∀ k : Fin 128, transpose S128x16 [1, 0] (truncf .bf16 x2 bitsLt_bf16_f32) transposes_S16x128_p1_0_S128x16 (ix2 k j)
      = x2 (ix2 j k) := fun k => transpose_ix2_apply (truncf .bf16 x2 bitsLt_bf16_f32) transposes_S16x128_p1_0_S128x16 k j
  simp only [truncf_apply, shapeCast_self, concatenate_row_apply, hw]
  rfl

end Cert.KernelRow
-- ==== Proof.KernelBlocks.lean ====
/-
  The windows' blocks, read off the arrays. The grid has 320 points; at point t the two row windows hold rows
  5000 t … 5000 t + 4999 of the gathered source features and of the edge attributes, every parameter window holds its
  whole array, and the output window's block is rows 5000 t … 5000 t + 4999 of the [1600000, 1] result. Stated here:
  each input window's block as rows of its array, and that the 320 output blocks tile the result.
-/
import proofs.«143738_j47880295416471_1_alg».proof.Proof.Gen.KernelIdeal.Frame
import proofs.«143738_j47880295416471_1_alg».proof.Proof.KernelRow
import Idealize.ShloMosaic.Lib.Pipeline.Value

noncomputable section

open Idealize.ShloMosaic Idealize.ShloMosaic.TcCoe Idealize.SL.Sem
open Idealize.ShloMosaic.Pipeline (Dat)

namespace Cert.KernelArray

open Cert.KernelIdeal Cert.KernelIdeal.Gen Idealize.ShloMosaic.ValueIdx Cert.EdgeRow Cert.KernelRow

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a <;> rfl

/-- The array of messages: at (e, u) the message of edge e. -/
def msgArr (xg : S1600000x96.Idx → EReal) (ea : S1600000x32.Idx → EReal) (W1 : S16x128.Idx → EReal)
    (b1 g be mu va : S16.Idx → EReal) (W2 : S1x16.Idx → EReal) (b2 : S1.Idx → EReal) : S1600000x1.Idx → EReal :=
  fun i => msgOf xg ea W1 b1 g be mu va W2 b2 ⟨(i 0).val, (i 0).isLt⟩

/-- The printed index maps over the grid: the two row windows and the output window are at block row t, column
    block 0; every parameter window stays at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0 ∧ win0_4.index t (0 : Fin 1) = 0 ∧ win0_5.index t (0 : Fin 1) = 0
    ∧ win0_6.index t (0 : Fin 1) = 0 ∧ win0_7.index t (0 : Fin 1) = 0
    ∧ win0_8.index t (0 : Fin 2) = 0 ∧ win0_8.index t (1 : Fin 2) = 0
    ∧ win0_9.index t (0 : Fin 1) = 0
    ∧ win0_10.index t (0 : Fin 2) = t.val ∧ win0_10.index t (1 : Fin 2) = 0 :=
  (by decide +kernel : ∀ t : Fin grid0.N, _)

/-! ## The parameter windows hold their whole arrays at every point -/

theorem iblk2_eq (c : Dev nD) (t : Fin cfg0.N) : (iblk m c 2 t : S16x128.Idx → EReal) = V m c main_arg4 := by
  obtain ⟨-, -, -, -, e0, e1, -⟩ := idx_facts t
  funext x
  unfold iblk
  rw [View.read_apply]
  show V m c main_arg4 _ = V m c main_arg4 x
  congr 1
  funext a; apply Fin.ext
  match a with
  | ⟨0, _⟩ => show win0_2.index t (0 : Fin 2) * 16 + 1 * (x 0).val = (x 0).val; omega
  | ⟨1, _⟩ => show win0_2.index t (1 : Fin 2) * 128 + 1 * (x 1).val = (x 1).val; omega

theorem iblk3_eq (c : Dev nD) (t : Fin cfg0.N) : (iblk m c 3 t : S16.Idx → EReal) = V m c main_arg5 := by
  obtain ⟨-, -, -, -, -, -, e0, -⟩ := idx_facts t
  funext x
  unfold iblk
  rw [View.read_apply]
  show V m c main_arg5 _ = V m c main_arg5 x
  congr 1
  funext a; apply Fin.ext
  match a with
  | ⟨0, _⟩ => show win0_3.index t (0 : Fin 1) * 16 + 1 * (x 0).val = (x 0).val; omega

theorem iblk4_eq (c : Dev nD) (t : Fin cfg0.N) : (iblk m c 4 t : S16.Idx → EReal) = V m c main_arg6 := by
  obtain ⟨-, -, -, -, -, -, -, e0, -⟩ := idx_facts t
  funext x
  unfold iblk
  rw [View.read_apply]
  show V m c main_arg6 _ = V m c main_arg6 x
  congr 1
  funext a; apply Fin.ext
  match a with
  | ⟨0, _⟩ => show win0_4.index t (0 : Fin 1) * 16 + 1 * (x 0).val = (x 0).val; omega

theorem iblk5_eq (c : Dev nD) (t : Fin cfg0.N) : (iblk m c 5 t : S16.Idx → EReal) = V m c main_arg7 := by
  obtain ⟨-, -, -, -, -, -, -, -, e0, -⟩ := idx_facts t
  funext x
  unfold iblk
  rw [View.read_apply]
  show V m c main_arg7 _ = V m c main_arg7 x
  congr 1
  funext a; apply Fin.ext
  match a with
  | ⟨0, _⟩ => show win0_5.index t (0 : Fin 1) * 16 + 1 * (x 0).val = (x 0).val; omega

theorem iblk6_eq (c : Dev nD) (t : Fin cfg0.N) : (iblk m c 6 t : S16.Idx → EReal) = V m c main_arg8 := by
  obtain ⟨-, -, -, -, -, -, -, -, -, e0, -⟩ := idx_facts t
  funext x
  unfold iblk
  rw [View.read_apply]
  show V m c main_arg8 _ = V m c main_arg8 x
  congr 1
  funext a; apply Fin.ext
  match a with
  | ⟨0, _⟩ => show win0_6.index t (0 : Fin 1) * 16 + 1 * (x 0).val = (x 0).val; omega

theorem iblk7_eq (c : Dev nD) (t : Fin cfg0.N) : (iblk m c 7 t : S16.Idx → EReal) = V m c main_arg9 := by
  obtain ⟨-, -, -, -, -, -, -, -, -, -, e0, -⟩ := idx_facts t
  funext x
  unfold iblk
  rw [View.read_apply]
  show V m c main_arg9 _ = V m c main_arg9 x
  congr 1
  funext a; apply Fin.ext
  match a with
  | ⟨0, _⟩ => show win0_7.index t (0 : Fin 1) * 16 + 1 * (x 0).val = (x 0).val; omega

theorem iblk8_eq (c : Dev nD) (t : Fin cfg0.N) : (iblk m c 8 t : S1x16.Idx → EReal) = V m c main_arg10 := by
  obtain ⟨-, -, -, -, -, -, -, -, -, -, -, e0, e1, -⟩ := idx_facts t
  funext x
  unfold iblk
  rw [View.read_apply]
  show V m c main_arg10 _ = V m c main_arg10 x
  congr 1
  funext a; apply Fin.ext
  match a with
  | ⟨0, _⟩ => show win0_8.index t (0 : Fin 2) * 1 + 1 * (x 0).val = (x 0).val; omega
  | ⟨1, _⟩ => show win0_8.index t (1 : Fin 2) * 16 + 1 * (x 1).val = (x 1).val; omega

theorem iblk9_eq (c : Dev nD) (t : Fin cfg0.N) : (iblk m c 9 t : S1.Idx → EReal) = V m c main_arg11 := by
  obtain ⟨-, -, -, -, -, -, -, -, -, -, -, -, -, e0, -⟩ := idx_facts t
  funext x
  unfold iblk
  rw [View.read_apply]
  show V m c main_arg11 _ = V m c main_arg11 x
  congr 1
  funext a; apply Fin.ext
  match a with
  | ⟨0, _⟩ => show win0_9.index t (0 : Fin 1) * 1 + 1 * (x 0).val = (x 0).val; omega

/-! ## The two row windows hold rows 5000 t … 5000 t + 4999 -/

theorem iblk0_apply (c : Dev nD) (t : Fin cfg0.N) (p : Fin 5000) (k : Fin 96) (e : Fin 1600000)
    (he : e.val = 5000 * t.val + p.val) :
    (iblk m c 0 t : S5000x96.Idx → EReal) (ix2 p k) = (V m c main_v10 : S1600000x96.Idx → EReal) (ix2 e k) := by
  obtain ⟨e0, e1, -⟩ := idx_facts t
  unfold iblk
  rw [View.read_apply]
  show V m c main_v10 _ = V m c main_v10 _
  congr 1
  funext a; apply Fin.ext
  match a with
  | ⟨0, _⟩ => show win0_0.index t (0 : Fin 2) * 5000 + 1 * p.val = e.val; omega
  | ⟨1, _⟩ => show win0_0.index t (1 : Fin 2) * 96 + 1 * k.val = k.val; omega

theorem iblk1_apply (c : Dev nD) (t : Fin cfg0.N) (p : Fin 5000) (k : Fin 32) (e : Fin 1600000)
    (he : e.val = 5000 * t.val + p.val) :
    (iblk m c 1 t : S5000x32.Idx → EReal) (ix2 p k) = (V m c main_arg1 : S1600000x32.Idx → EReal) (ix2 e k) := by
  obtain ⟨-, -, e0, e1, -⟩ := idx_facts t
  unfold iblk
  rw [View.read_apply]
  show V m c main_arg1 _ = V m c main_arg1 _
  congr 1
  funext a; apply Fin.ext
  match a with
  | ⟨0, _⟩ => show win0_1.index t (0 : Fin 2) * 5000 + 1 * p.val = e.val; omega
  | ⟨1, _⟩ => show win0_1.index t (1 : Fin 2) * 32 + 1 * k.val = k.val; omega

/-! ## The output window's blocks tile the result -/

/-- An index of the result is in point t's block iff each coordinate is in the block's range on its axis. -/
theorem mem_blk (t : Fin cfg0.N) (i : S1600000x1.Idx) :
    i ∈ ((cfg0.win 10).blk t).view.set ↔ ∀ a : Fin 2, win0_10.index t a * S5000x1.size a ≤ (i a).val
      ∧ (i a).val < win0_10.index t a * S5000x1.size a + S5000x1.size a := by
  show i ∈ ((View.whole main_v11).slice (win0_10.rect t)).set ↔ _
  rw [View.set_slice_whole, Rect.mem_set_unit]
  exact Iff.rfl

/-- Every index of the result is in the block of the point its row number divided by 5000 names. -/
theorem cover (i : S1600000x1.Idx) :
    ∃ t : Fin cfg0.N, (cfg0.win 10).flush t = true ∧ i ∈ ((cfg0.win 10).blk t).view.set := by
  have hN : cfg0.N = 320 := N_0
  have hi0 : (i 0).val < 1600000 := (i 0).isLt
  have hi1 : (i 1).val < 1 := (i 1).isLt
  have ht : (i 0).val / 5000 < cfg0.N := by rw [hN]; omega
  obtain ⟨-, -, -, -, -, -, -, -, -, -, -, -, -, -, eA0, eA1⟩ := idx_facts ⟨(i 0).val / 5000, ht⟩
  refine ⟨⟨(i 0).val / 5000, ht⟩, flush0_10 _, ?_⟩
  rw [mem_blk]
  intro a
  match a with
  | ⟨0, _⟩ =>
    show win0_10.index ⟨(i 0).val / 5000, ht⟩ (0 : Fin 2) * 5000 ≤ (i 0).val
      ∧ (i 0).val < win0_10.index ⟨(i 0).val / 5000, ht⟩ (0 : Fin 2) * 5000 + 5000
    rw [eA0]; show (i 0).val / 5000 * 5000 ≤ (i 0).val ∧ (i 0).val < (i 0).val / 5000 * 5000 + 5000; omega
  | ⟨1, _⟩ =>
    show win0_10.index ⟨(i 0).val / 5000, ht⟩ (1 : Fin 2) * 1 ≤ (i 1).val
      ∧ (i 1).val < win0_10.index ⟨(i 0).val / 5000, ht⟩ (1 : Fin 2) * 1 + 1
    rw [eA1]; omega

end Cert.KernelArray
-- ==== Proof.KernelArray.lean ====
/-
  From the blocks to the array of messages. Row p of what point t writes back is the message of row p of its two row
  blocks, which is the message of edge 5000 t + p of the whole arrays; the 320 blocks tile the result, so after the
  region it holds the message of edge e at (e, 0).
-/
import proofs.«143738_j47880295416471_1_alg».proof.Proof.KernelBlocks

noncomputable section

open Idealize.ShloMosaic Idealize.ShloMosaic.TcCoe Idealize.SL.Sem
open Idealize.ShloMosaic.Pipeline (Dat)

namespace Cert.KernelArray

open Cert.KernelIdeal Cert.KernelIdeal.Gen Idealize.ShloMosaic.ValueIdx Cert.EdgeRow Cert.KernelRow

variable (m : (ℓ : Loc nD τ sig) → Buf (Elt Ideal) ℓ)

/-- The messages of the arrays as the region finds them. -/
abbrev found (c : Dev nD) : S1600000x1.Idx → EReal :=
  msgArr (V m c main_v10) (V m c main_arg1) (V m c main_arg4) (V m c main_arg5) (V m c main_arg6) (V m c main_arg7)
    (V m c main_arg8) (V m c main_arg9) (V m c main_arg10) (V m c main_arg11)

/-- Row p of what the body leaves in the output window's buffer, for any contents of the input windows' buffers: the
    one store covers the buffer, each load reads a whole buffer, and the stored value's row p is the message of row p. -/
theorem out_row (x0 : FVec Ideal S5000x96 .f32) (x1 : FVec Ideal S5000x32 .f32) (x2 : FVec Ideal S16x128 .f32)
    (x3 x4 x5 x6 x7 : FVec Ideal S16 .f32) (x8 : FVec Ideal S1x16 .f32) (x9 : FVec Ideal S1 .f32) (p : Fin 5000) :
    out0_10 (F := Ideal) x0 x1 x2 x3 x4 x5 x6 x7 x8 x9 (ix2 p (0 : Fin 1))
      = rowMsg (catRow (fun k => x0 (ix2 p k)) (fun k => x1 (ix2 p k))) x2 x3 x4 x5 x6 x7 x8 x9 := by
  unfold out0_10
  rw [View.canon_unit_zero hz2]
  simp only [View.ld_unit_zero (S := S5000x96) hz2, View.ld_unit_zero (S := S5000x32) hz2, View.ld_unit_zero (S := S16x128) hz2,
    View.ld_unit_zero (S := S16) hz1, View.ld_unit_zero (S := S1x16) hz2, View.ld_unit_zero (S := S1) hz1]
  exact pay_apply x0 x1 x2 x3 x4 x5 x6 x7 x8 x9 p

/-- Point t writes back rows 5000 t … 5000 t + 4999 of the array of messages. -/
theorem flushed_eq (c : Dev nD) (t : Fin cfg0.N) :
    (dats m 0 c).flushed 10 t = ((cfg0.win 10).blk t).view.read (Elt Ideal) (found m c) := by
  show (cfg0.win 10).cut (grid0.coords t) ((dats m 0 c).after 10 t) = _
  rw [after0_10]
  funext y
  obtain ⟨p, u, rfl⟩ : ∃ (p : Fin 5000) (u : Fin 1), y = ix2 p u := ⟨y 0, y 1, eq_ix2 y⟩
  have hu : u = 0 := Fin.ext (by omega)
  subst hu
  show out0_10 (iblk m c 0 t) (iblk m c 1 t) (iblk m c 2 t) (iblk m c 3 t) (iblk m c 4 t) (iblk m c 5 t) (iblk m c 6 t)
    (iblk m c 7 t) (iblk m c 8 t) (iblk m c 9 t) (ix2 p (0 : Fin 1)) = found m c (((cfg0.win 10).blk t).view.emb (ix2 p (0 : Fin 1)))
  refine (out_row (iblk m c 0 t) (iblk m c 1 t) (iblk m c 2 t) (iblk m c 3 t) (iblk m c 4 t) (iblk m c 5 t) (iblk m c 6 t)
    (iblk m c 7 t) (iblk m c 8 t) (iblk m c 9 t) p).trans ?_
  rw [iblk2_eq m c t, iblk3_eq m c t, iblk4_eq m c t, iblk5_eq m c t, iblk6_eq m c t, iblk7_eq m c t, iblk8_eq m c t, iblk9_eq m c t]
  -- the edge this row is: 5000 t + p
  obtain ⟨-, -, -, -, -, -, -, -, -, -, -, -, -, -, eA0, eA1⟩ := idx_facts t
  obtain ⟨e, he, hfound⟩ : ∃ e : Fin 1600000, e.val = 5000 * t.val + p.val
      ∧ found m c (((cfg0.win 10).blk t).view.emb (ix2 p (0 : Fin 1)))
        = msgOf (V m c main_v10) (V m c main_arg1) (V m c main_arg4) (V m c main_arg5) (V m c main_arg6) (V m c main_arg7)
            (V m c main_arg8) (V m c main_arg9) (V m c main_arg10) (V m c main_arg11) e :=
    ⟨⟨(((cfg0.win 10).blk t).view.emb (ix2 p (0 : Fin 1)) 0).val, (((cfg0.win 10).blk t).view.emb (ix2 p (0 : Fin 1)) 0).isLt⟩,
      (by show win0_10.index t (0 : Fin 2) * 5000 + 1 * p.val = 5000 * t.val + p.val; omega), rfl⟩
  rw [hfound]
  unfold msgOf
  have h0 : (fun k : Fin 96 => (iblk m c 0 t : S5000x96.Idx → EReal) (ix2 p k))
      = fun k => (V m c main_v10 : S1600000x96.Idx → EReal) (ix2 e k) := funext fun k => iblk0_apply m c t p k e he
  have h1 : (fun k : Fin 32 => (iblk m c 1 t : S5000x32.Idx → EReal) (ix2 p k))
      = fun k => (V m c main_arg1 : S1600000x32.Idx → EReal) (ix2 e k) := funext fun k => iblk1_apply m c t p k e he
  rw [h0, h1]

/-- After the region the result array holds the messages of the arrays as the region found them. -/
theorem final (c : Dev nD) : (dats m 0 c).arrAt 10 cfg0.N = found m c :=
  (dats m 0 c).arrAt_eq_of_cover 10 (found m c) (fun t _ => flushed_eq m c t) (cover)

end Cert.KernelArray
-- ==== Proof.LibSegmentDims.lean ====
/-
  The dimension numbers of a segment sum, and what they mean: scatter indices [N, 1] with the index vector along the
  second axis, the one index component addressing operand axis 0, which is also the one inserted window axis; for a
  matrix of updates [N, C] the update's second axis is its window axis and runs along the operand's columns, for a
  vector of updates [N] there is no window. So update element (i, b) starts at (row number i, 0) with window coordinate
  (0, b), and update element i of a vector starts at row number i with no window.
-/
import Idealize.ShloMosaic.Lib.ValueIdx

noncomputable section

namespace Cert.SegmentDims

open Idealize.ShloMosaic Idealize.ShloMosaic.ValueIdx

/-! ## Rows: operand [S, C], indices [N, 1], updates [N, C] -/

abbrev rowsDims (S C N : Nat)
    (wf : ScatterDims.WF ⟨2, ![S, C]⟩ ⟨2, ![N, 1]⟩ ⟨2, ![N, C]⟩ [1] [0] [0] 1) :
    ScatterDims ⟨2, ![S, C]⟩ ⟨2, ![N, 1]⟩ ⟨2, ![N, C]⟩ where
  updateWindowDims := [1]
  insertedWindowDims := [0]
  scatterDimsToOperandDims := [0]
  indexVectorDim := 1
  wf := wf

variable {S C N w : Nat}

theorem rows_start0 (wf : ScatterDims.WF ⟨2, ![S, C]⟩ ⟨2, ![N, 1]⟩ ⟨2, ![N, C]⟩ [1] [0] [0] 1)
    (i : Fin N) (b : Fin C) (idx : IVec ⟨2, ![N, 1]⟩ w) :
    (rowsDims S C N wf).start (ix2 i b) idx (0 : Fin 2) = (idx (ix2 i (0 : Fin 1))).toInt := by
  unfold ScatterDims.start
  rw [dif_pos (show (0 : Fin 2) ∈ (rowsDims S C N wf).scatterDimsToOperandDims from List.mem_singleton.mpr rfl)]
  have hsi : (rowsDims S C N wf).siIdx (ix2 i b) ⟨List.idxOf (0 : Fin 2) (rowsDims S C N wf).scatterDimsToOperandDims,
      List.idxOf_lt_length_iff.2 (List.mem_singleton.mpr rfl)⟩ = ix2 i (0 : Fin 1) := by
    funext a; refine Fin.ext ?_
    match a with
    | ⟨0, _⟩ => rfl
    | ⟨1, _⟩ => rfl
  rw [hsi]

theorem rows_start1 (wf : ScatterDims.WF ⟨2, ![S, C]⟩ ⟨2, ![N, 1]⟩ ⟨2, ![N, C]⟩ [1] [0] [0] 1)
    (i : Fin N) (b : Fin C) (idx : IVec ⟨2, ![N, 1]⟩ w) :
    (rowsDims S C N wf).start (ix2 i b) idx (1 : Fin 2) = 0 := by
  unfold ScatterDims.start
  rw [dif_neg (show (1 : Fin 2) ∉ (rowsDims S C N wf).scatterDimsToOperandDims from
    fun h => absurd (show (1 : Nat) = 0 from congrArg Fin.val (List.mem_singleton.mp h)) (by decide))]

theorem rows_window0 (wf : ScatterDims.WF ⟨2, ![S, C]⟩ ⟨2, ![N, 1]⟩ ⟨2, ![N, C]⟩ [1] [0] [0] 1)
    (i : Fin N) (b : Fin C) : (rowsDims S C N wf).window (ix2 i b) (0 : Fin 2) = 0 := by
  unfold ScatterDims.window
  rw [dif_neg]
  intro h
  have : (0 : Fin 2) ∉ (rowsDims S C N wf).insertedWindowDims := by
    simpa [ScatterDims.sKept, Shape.kept, List.mem_filter] using h
  exact this (List.mem_singleton.mpr rfl)

theorem rows_window1 (wf : ScatterDims.WF ⟨2, ![S, C]⟩ ⟨2, ![N, 1]⟩ ⟨2, ![N, C]⟩ [1] [0] [0] 1)
    (i : Fin N) (b : Fin C) : (rowsDims S C N wf).window (ix2 i b) (1 : Fin 2) = b.val := by
  unfold ScatterDims.window
  have h1 : (1 : Fin 2) ∈ (rowsDims S C N wf).sKept := by
    simp [ScatterDims.sKept, Shape.kept, List.mem_filter, List.mem_finRange]
  rw [dif_pos h1]
  rfl

/-! ## Elements: operand [S], indices [N, 1], updates [N] -/

abbrev vecDims (S N : Nat) (wf : ScatterDims.WF ⟨1, ![S]⟩ ⟨2, ![N, 1]⟩ ⟨1, ![N]⟩ [] [0] [0] 1) :
    ScatterDims ⟨1, ![S]⟩ ⟨2, ![N, 1]⟩ ⟨1, ![N]⟩ where
  updateWindowDims := []
  insertedWindowDims := [0]
  scatterDimsToOperandDims := [0]
  indexVectorDim := 1
  wf := wf

theorem vec_start0 (wf : ScatterDims.WF ⟨1, ![S]⟩ ⟨2, ![N, 1]⟩ ⟨1, ![N]⟩ [] [0] [0] 1)
    (i : Fin N) (idx : IVec ⟨2, ![N, 1]⟩ w) :
    (vecDims S N wf).start (ix1 i) idx (0 : Fin 1) = (idx (ix2 i (0 : Fin 1))).toInt := by
  unfold ScatterDims.start
  rw [dif_pos (show (0 : Fin 1) ∈ (vecDims S N wf).scatterDimsToOperandDims from List.mem_singleton.mpr rfl)]
  have hsi : (vecDims S N wf).siIdx (ix1 i) ⟨List.idxOf (0 : Fin 1) (vecDims S N wf).scatterDimsToOperandDims,
      List.idxOf_lt_length_iff.2 (List.mem_singleton.mpr rfl)⟩ = ix2 i (0 : Fin 1) := by
    funext a; refine Fin.ext ?_
    match a with
    | ⟨0, _⟩ => rfl
    | ⟨1, _⟩ => rfl
  rw [hsi]

theorem vec_window0 (wf : ScatterDims.WF ⟨1, ![S]⟩ ⟨2, ![N, 1]⟩ ⟨1, ![N]⟩ [] [0] [0] 1) (i : Fin N) :
    (vecDims S N wf).window (ix1 i) (0 : Fin 1) = 0 := by
  unfold ScatterDims.window
  rw [dif_neg]
  intro h
  have : (0 : Fin 1) ∉ (vecDims S N wf).insertedWindowDims := by
    simpa [ScatterDims.sKept, Shape.kept, List.mem_filter] using h
  exact this (List.mem_singleton.mpr rfl)

end Cert.SegmentDims
-- ==== Proof.LibSegmentSum.lean ====
/-
  The host's accumulating scatter, read at an index given by coordinates, at the ideal values, for the dimension
  numbers of a SEGMENT SUM: the scatter indices are a column of N row numbers (shape [N, 1], the index vector along
  the second axis), update row i is added into operand row idx[i] (the scatter axis goes to operand axis 0, which is
  the one inserted window axis), and the update's remaining axis, if any, runs along the operand's columns. An element
  of the result is then the operand's element plus the sum of the update elements in the same column whose row number
  is that element's row: a sum over a filter of Fin N. A row number read signed that is negative or not below the
  operand's row count lands outside and adds nothing, which the filter says by itself, the wanted row being a row.
-/
import Idealize.ShloMosaic.Lib.ValueIdx
import Idealize.ShloMosaic.PureOps.Ideal.Laws

noncomputable section

namespace Cert.SegmentSum

open Idealize.ShloMosaic Idealize.ShloMosaic.ValueIdx
open scoped BigOperators

/-! ## Updates of rows: operand [S, C], updates [N, C] -/

/-- Update element (i, b) lands on operand element (s, c) exactly when row number i, read signed, is s and b = c:
    the start is (row number, 0) and the window coordinate is (0, b), so the landing place is (row number, b), inside
    the operand exactly when the row number is one of its rows. -/
theorem resultIdx?_rows_eq_some_iff {S C N w : ℕ} (d : ScatterDims ⟨2, ![S, C]⟩ ⟨2, ![N, 1]⟩ ⟨2, ![N, C]⟩)
    (hs0 : ∀ (i : Fin N) (b : Fin C) (idx : IVec ⟨2, ![N, 1]⟩ w),
      d.start (ix2 i b) idx (0 : Fin 2) = (idx (ix2 i (0 : Fin 1))).toInt)
    (hs1 : ∀ (i : Fin N) (b : Fin C) (idx : IVec ⟨2, ![N, 1]⟩ w), d.start (ix2 i b) idx (1 : Fin 2) = 0)
    (hw0 : ∀ (i : Fin N) (b : Fin C), d.window (ix2 i b) (0 : Fin 2) = 0)
    (hw1 : ∀ (i : Fin N) (b : Fin C), d.window (ix2 i b) (1 : Fin 2) = b.val)
    (idx : IVec ⟨2, ![N, 1]⟩ w) (i : Fin N) (b : Fin C) (s : Fin S) (c : Fin C) :
    d.resultIdx? (ix2 i b) idx = some (ix2 s c) ↔ (idx (ix2 i (0 : Fin 1))).toInt = (s.val : Int) ∧ b = c := by
  unfold ScatterDims.resultIdx?
  constructor
  · intro h
    split_ifs at h with hr
    have h' := Option.some.inj h
    have h0 : (d.start (ix2 i b) idx (0 : Fin 2) + (d.window (ix2 i b) (0 : Fin 2) : Int)).toNat = s.val :=
      congrArg (fun f : (⟨2, ![S, C]⟩ : Shape).Idx => (f (0 : Fin 2)).val) h'
    have h1 : (d.start (ix2 i b) idx (1 : Fin 2) + (d.window (ix2 i b) (1 : Fin 2) : Int)).toNat = c.val :=
      congrArg (fun f : (⟨2, ![S, C]⟩ : Shape).Idx => (f (1 : Fin 2)).val) h'
    have hr0 := (hr (0 : Fin 2)).1
    rw [hs0, hw0] at h0 hr0
    rw [hs1, hw1] at h1
    refine ⟨by omega, Fin.ext (by omega)⟩
  · rintro ⟨hrow, rfl⟩
    have hr : ∀ a : Fin 2, 0 ≤ d.start (ix2 i b) idx a + (d.window (ix2 i b) a : Int) ∧
        d.start (ix2 i b) idx a + (d.window (ix2 i b) a : Int) < ((⟨2, ![S, C]⟩ : Shape).size a : Int) := by
      intro a
      match a with
      | ⟨0, _⟩ =>
        have e1 := hs0 i b idx
        have e2 := hw0 i b
        have hS : (s.val : Int) < (S : Int) := by exact_mod_cast s.isLt
        show 0 ≤ d.start (ix2 i b) idx (0 : Fin 2) + (d.window (ix2 i b) (0 : Fin 2) : Int) ∧
          d.start (ix2 i b) idx (0 : Fin 2) + (d.window (ix2 i b) (0 : Fin 2) : Int) < (S : Int)
        rw [e1, e2]; omega
      | ⟨1, _⟩ =>
        have e1 := hs1 i b idx
        have e2 := hw1 i b
        have hC : (b.val : Int) < (C : Int) := by exact_mod_cast b.isLt
        show 0 ≤ d.start (ix2 i b) idx (1 : Fin 2) + (d.window (ix2 i b) (1 : Fin 2) : Int) ∧
          d.start (ix2 i b) idx (1 : Fin 2) + (d.window (ix2 i b) (1 : Fin 2) : Int) < (C : Int)
        rw [e1, e2]; omega
    rw [dif_pos hr]
    congr 1
    funext a
    apply Fin.ext
    match a with
    | ⟨0, _⟩ =>
      show (d.start (ix2 i b) idx (0 : Fin 2) + (d.window (ix2 i b) (0 : Fin 2) : Int)).toNat = s.val
      rw [hs0, hw0]; omega
    | ⟨1, _⟩ =>
      show (d.start (ix2 i b) idx (1 : Fin 2) + (d.window (ix2 i b) (1 : Fin 2) : Int)).toNat = b.val
      rw [hs1, hw1]; omega

/-- The accumulating scatter of N update rows into an operand of S rows, at row s and column c: the operand's element
    plus the sum, over the update rows i whose row number (read signed) is s, of the update at (i, c). The hypotheses say
    what the dimension numbers mean: the start is (row number, 0), the window coordinate is (0, update column). The sum
    over the update indices that land on (s, c) is split by coordinates; the column must be c and the row's number s. -/
theorem scatterAdd_rows_apply {S C N w : ℕ} (d : ScatterDims ⟨2, ![S, C]⟩ ⟨2, ![N, 1]⟩ ⟨2, ![N, C]⟩)
    (hs0 : ∀ (i : Fin N) (b : Fin C) (idx : IVec ⟨2, ![N, 1]⟩ w),
      d.start (ix2 i b) idx (0 : Fin 2) = (idx (ix2 i (0 : Fin 1))).toInt)
    (hs1 : ∀ (i : Fin N) (b : Fin C) (idx : IVec ⟨2, ![N, 1]⟩ w), d.start (ix2 i b) idx (1 : Fin 2) = 0)
    (hw0 : ∀ (i : Fin N) (b : Fin C), d.window (ix2 i b) (0 : Fin 2) = 0)
    (hw1 : ∀ (i : Fin N) (b : Fin C), d.window (ix2 i b) (1 : Fin 2) = b.val)
    (x : FVec Ideal ⟨2, ![S, C]⟩ .f32) (idx : IVec ⟨2, ![N, 1]⟩ w) (upd : FVec Ideal ⟨2, ![N, C]⟩ .f32)
    (s : Fin S) (c : Fin C) :
    Host.scatterAdd d x idx upd (ix2 s c) = x (ix2 s c) +
      ∑ i ∈ Finset.univ.filter (fun i : Fin N => (idx (ix2 i (0 : Fin 1))).toInt = (s.val : Int)), upd (ix2 i c) := by
  show x (ix2 s c) + ∑ j ∈ Finset.univ.filter (fun j => d.resultIdx? j idx = some (ix2 s c)), upd j = _
  congr 1
  rw [Finset.sum_filter, Finset.sum_filter, sum_idx2]
  refine Finset.sum_congr rfl fun i _ => ?_
  simp only [resultIdx?_rows_eq_some_iff d hs0 hs1 hw0 hw1]
  by_cases h : (idx (ix2 i (0 : Fin 1))).toInt = (s.val : Int)
  · simp only [h, true_and, if_true]
    rw [Finset.sum_ite_eq' Finset.univ c (fun b => upd (ix2 i b))]
    simp
  · simp only [h, false_and, if_false, Finset.sum_const_zero]

/-! ## Updates of single elements: operand [S], updates [N] -/

/-- A rank-1 index set is its one coordinate range … -/
def idxEquiv1 {n : ℕ} : (⟨1, ![n]⟩ : Shape).Idx ≃ Fin n where
  toFun j := j 0
  invFun i := ix1 i
  left_inv j := (eq_ix1 j).symm
  right_inv _ := rfl

/-- … so a sum over it is the sum over the coordinate. -/
theorem sum_idx1 {M : Type*} [AddCommMonoid M] {n : ℕ} (f : (⟨1, ![n]⟩ : Shape).Idx → M) :
    ∑ j, f j = ∑ i : Fin n, f (ix1 i) := by
  rw [← Equiv.sum_comp (idxEquiv1 (n := n)).symm f]
  rfl

/-- Update element i lands on operand element s exactly when row number i, read signed, is s: the start is the row
    number and there is no window, so the landing place is the row number, inside the operand exactly when it is one of
    its elements. -/
theorem resultIdx?_vec_eq_some_iff {S N w : ℕ} (d : ScatterDims ⟨1, ![S]⟩ ⟨2, ![N, 1]⟩ ⟨1, ![N]⟩)
    (hs0 : ∀ (i : Fin N) (idx : IVec ⟨2, ![N, 1]⟩ w),
      d.start (ix1 i) idx (0 : Fin 1) = (idx (ix2 i (0 : Fin 1))).toInt)
    (hw0 : ∀ (i : Fin N), d.window (ix1 i) (0 : Fin 1) = 0)
    (idx : IVec ⟨2, ![N, 1]⟩ w) (i : Fin N) (s : Fin S) :
    d.resultIdx? (ix1 i) idx = some (ix1 s) ↔ (idx (ix2 i (0 : Fin 1))).toInt = (s.val : Int) := by
  unfold ScatterDims.resultIdx?
  constructor
  · intro h
    split_ifs at h with hr
    have h' := Option.some.inj h
    have h0 : (d.start (ix1 i) idx (0 : Fin 1) + (d.window (ix1 i) (0 : Fin 1) : Int)).toNat = s.val :=
      congrArg (fun f : (⟨1, ![S]⟩ : Shape).Idx => (f (0 : Fin 1)).val) h'
    have hr0 := (hr (0 : Fin 1)).1
    rw [hs0, hw0] at h0 hr0
    omega
  · intro hrow
    have hr : ∀ a : Fin 1, 0 ≤ d.start (ix1 i) idx a + (d.window (ix1 i) a : Int) ∧
        d.start (ix1 i) idx a + (d.window (ix1 i) a : Int) < ((⟨1, ![S]⟩ : Shape).size a : Int) := by
      intro a
      match a with
      | ⟨0, _⟩ =>
        have e1 := hs0 i idx
        have e2 := hw0 i
        have hS : (s.val : Int) < (S : Int) := by exact_mod_cast s.isLt
        show 0 ≤ d.start (ix1 i) idx (0 : Fin 1) + (d.window (ix1 i) (0 : Fin 1) : Int) ∧
          d.start (ix1 i) idx (0 : Fin 1) + (d.window (ix1 i) (0 : Fin 1) : Int) < (S : Int)
        rw [e1, e2]; omega
    rw [dif_pos hr]
    congr 1
    funext a
    apply Fin.ext
    match a with
    | ⟨0, _⟩ =>
      show (d.start (ix1 i) idx (0 : Fin 1) + (d.window (ix1 i) (0 : Fin 1) : Int)).toNat = s.val
      rw [hs0, hw0]; omega

/-- The accumulating scatter of N update elements into an operand of S elements, at element s: the operand's element
    plus the sum, over the update elements i whose row number (read signed) is s, of the update at i. The hypotheses say
    what the dimension numbers mean: the start is the row number, and there is no window. -/
theorem scatterAdd_vec_apply {S N w : ℕ} (d : ScatterDims ⟨1, ![S]⟩ ⟨2, ![N, 1]⟩ ⟨1, ![N]⟩)
    (hs0 : ∀ (i : Fin N) (idx : IVec ⟨2, ![N, 1]⟩ w),
      d.start (ix1 i) idx (0 : Fin 1) = (idx (ix2 i (0 : Fin 1))).toInt)
    (hw0 : ∀ (i : Fin N), d.window (ix1 i) (0 : Fin 1) = 0)
    (x : FVec Ideal ⟨1, ![S]⟩ .f32) (idx : IVec ⟨2, ![N, 1]⟩ w) (upd : FVec Ideal ⟨1, ![N]⟩ .f32) (s : Fin S) :
    Host.scatterAdd d x idx upd (ix1 s) = x (ix1 s) +
      ∑ i ∈ Finset.univ.filter (fun i : Fin N => (idx (ix2 i (0 : Fin 1))).toInt = (s.val : Int)), upd (ix1 i) := by
  show x (ix1 s) + ∑ j ∈ Finset.univ.filter (fun j => d.resultIdx? j idx = some (ix1 s)), upd j = _
  congr 1
  rw [Finset.sum_filter, Finset.sum_filter, sum_idx1]
  refine Finset.sum_congr rfl fun i _ => ?_
  simp only [resultIdx?_vec_eq_some_iff d hs0 hw0]

end Cert.SegmentSum
-- ==== Proof.PoolTail.lean ====
/-
  The two sums after the per-edge messages. Every edge adds its message to its target node, and every node adds what
  it has received to its graph:

    node_n   = 0 + sum of msg_e over the edges e whose target number is n
    pooled_g = 0 + sum of node_n over the nodes n whose graph number is g

  the numbers read signed off a column of 32-bit words; an edge or node whose number is negative or too large adds
  nothing, since no n or g equals such a number. Both programs compute this by two accumulating scatters into zeros.
  One keeps the messages as a vector [E] and the sums as vectors [N], [G]; the other keeps a trailing axis of size one
  throughout, [E, 1], [N, 1], [G, 1]. Read at an element, both are the sums above: the accumulating scatter at an
  element is the operand there plus the sum of the updates that land there.
-/
import proofs.«143738_j47880295416471_1_alg».proof.Proof.LibSegmentDims
import proofs.«143738_j47880295416471_1_alg».proof.Proof.LibSegmentSum

noncomputable section

namespace Cert.PoolTail

open Idealize.ShloMosaic Idealize.ShloMosaic.ValueIdx Cert.SegmentDims Cert.SegmentSum
open scoped BigOperators

/-- The number the zero word denotes: what both programs fill the accumulators with. -/
abbrev zeroWord : EReal := Ideal.ofBits .f32 0x00000000#32

/-- The sum of the updates whose number, read signed off the column idx, is s. -/
def segSum {S N w : ℕ} (idx : IVec ⟨2, ![N, 1]⟩ w) (upd : Fin N → EReal) (s : Fin S) : EReal :=
  ∑ i ∈ Finset.univ.filter (fun i : Fin N => (idx (ix2 i (0 : Fin 1))).toInt = (s.val : Int)), upd i

/-- What graph g ends with: the messages of the edges into its nodes, summed per node and then per graph, each sum
    started from the zero word's number. -/
def pooled {E N G w : ℕ} (dst : IVec ⟨2, ![E, 1]⟩ w) (bat : IVec ⟨2, ![N, 1]⟩ w) (msg : Fin E → EReal) (g : Fin G) : EReal :=
  zeroWord + segSum bat (fun n : Fin N => zeroWord + segSum dst msg n) g

/-- The vector layout: messages [E] scattered into zeros [N] by the target column, the result scattered into zeros
    [G] by the graph column. -/
theorem pooled_of_vectors {E N G w : ℕ}
    (wf1 : ScatterDims.WF ⟨1, ![N]⟩ ⟨2, ![E, 1]⟩ ⟨1, ![E]⟩ [] [0] [0] 1)
    (wf2 : ScatterDims.WF ⟨1, ![G]⟩ ⟨2, ![N, 1]⟩ ⟨1, ![N]⟩ [] [0] [0] 1)
    (zN : FVec Ideal ⟨1, ![N]⟩ .f32) (hzN : ∀ i, zN i = zeroWord)
    (zG : FVec Ideal ⟨1, ![G]⟩ .f32) (hzG : ∀ i, zG i = zeroWord)
    (dst : IVec ⟨2, ![E, 1]⟩ w) (bat : IVec ⟨2, ![N, 1]⟩ w) (msg : FVec Ideal ⟨1, ![E]⟩ .f32) (g : Fin G) :
    Host.scatterAdd (vecDims G N wf2) zG bat (Host.scatterAdd (vecDims N E wf1) zN dst msg) (ix1 g)
      = pooled dst bat (fun e => msg (ix1 e)) g := by
  rw [scatterAdd_vec_apply (vecDims G N wf2) (fun i idx => vec_start0 wf2 i idx) (fun i => vec_window0 wf2 i), hzG]
  unfold pooled segSum
  refine congrArg (zeroWord + ·) (Finset.sum_congr rfl fun n _ => ?_)
  rw [scatterAdd_vec_apply (vecDims N E wf1) (fun i idx => vec_start0 wf1 i idx) (fun i => vec_window0 wf1 i), hzN]

/-- The one-column layout: messages [E, 1] scattered into zeros [N, 1], the result scattered into zeros [G, 1]; read at
    the one column. -/
theorem pooled_of_columns {E N G w : ℕ}
    (wf1 : ScatterDims.WF ⟨2, ![N, 1]⟩ ⟨2, ![E, 1]⟩ ⟨2, ![E, 1]⟩ [1] [0] [0] 1)
    (wf2 : ScatterDims.WF ⟨2, ![G, 1]⟩ ⟨2, ![N, 1]⟩ ⟨2, ![N, 1]⟩ [1] [0] [0] 1)
    (zN : FVec Ideal ⟨2, ![N, 1]⟩ .f32) (hzN : ∀ i, zN i = zeroWord)
    (zG : FVec Ideal ⟨2, ![G, 1]⟩ .f32) (hzG : ∀ i, zG i = zeroWord)
    (dst : IVec ⟨2, ![E, 1]⟩ w) (bat : IVec ⟨2, ![N, 1]⟩ w) (msg : FVec Ideal ⟨2, ![E, 1]⟩ .f32) (g : Fin G) :
    Host.scatterAdd (rowsDims G 1 N wf2) zG bat (Host.scatterAdd (rowsDims N 1 E wf1) zN dst msg) (ix2 g (0 : Fin 1))
      = pooled dst bat (fun e => msg (ix2 e (0 : Fin 1))) g := by
  rw [scatterAdd_rows_apply (rowsDims G 1 N wf2) (fun i b idx => rows_start0 wf2 i b idx) (fun i b idx => rows_start1 wf2 i b idx)
    (fun i b => rows_window0 wf2 i b) (fun i b => rows_window1 wf2 i b), hzG]
  unfold pooled segSum
  refine congrArg (zeroWord + ·) (Finset.sum_congr rfl fun n _ => ?_)
  rw [scatterAdd_rows_apply (rowsDims N 1 E wf1) (fun i b idx => rows_start0 wf1 i b idx) (fun i b idx => rows_start1 wf1 i b idx)
    (fun i b => rows_window0 wf1 i b) (fun i b => rows_window1 wf1 i b), hzN]

end Cert.PoolTail
-- ==== Proof.KernelValue.lean ====
/-
  The kernel program's result. After the region the host reshapes the [1600000, 1] array of messages to a vector,
  scatters it into zeros [100000] by the target column and scatters that into zeros [128] by the graph column. The
  region leaves the array of messages of the arrays it found; the lines after it read that array, the target numbers
  computed before the region, and the graph numbers as launched. So element g of the result is the pooled sum of the
  edge messages, and the argument arrays end as they were.
-/
import proofs.«143738_j47880295416471_1_alg».proof.Proof.KernelArray
import proofs.«143738_j47880295416471_1_alg».proof.Proof.PoolTail
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KernelValue

open Cert.KernelIdeal Cert.KernelIdeal.Gen Idealize.ShloMosaic.ValueIdx Cert.EdgeRow Cert.KernelArray Cert.PoolTail Cert.SegmentDims

variable (m : (ℓ : Loc nD τ sig) → Buf (Elt Ideal) ℓ) (ρ : Dev nD → PrngReg)

/-- The two scatters' dimension numbers are those of a segment sum of single elements. -/
theorem wf1 : ScatterDims.WF ⟨1, ![100000]⟩ ⟨2, ![1600000, 1]⟩ ⟨1, ![1600000]⟩ [] [0] [0] 1 :=
  scatter_S100000_S1600000x1_S1600000_n_0_0_1.wf
theorem wf2 : ScatterDims.WF ⟨1, ![128]⟩ ⟨2, ![100000, 1]⟩ ⟨1, ![100000]⟩ [] [0] [0] 1 :=
  scatter_S128_S100000x1_S100000_n_0_0_1.wf
theorem dims1 : scatter_S100000_S1600000x1_S1600000_n_0_0_1 = vecDims 100000 1600000 wf1 := rfl
theorem dims2 : scatter_S128_S100000x1_S100000_n_0_0_1 = vecDims 128 100000 wf2 := rfl

/-- The column of target numbers: the second row of the edge list, as computed before the region, made a column. -/
abbrev dstCol (c : Dev nD) : IVec S1600000x1 32 :=
  broadcastInDim S1600000x1 ![0] bcast_S1600000_S1600000x1_0 (V m c main_v3)
/-- The column of graph numbers: the batch vector as launched, made a column. -/
abbrev batCol (c : Dev nD) : IVec S100000x1 32 :=
  broadcastInDim S100000x1 ![0] bcast_S100000_S100000x1_0 (m ((c : Thread nD τ).loc main_arg3))

/-- What the program's result holds: at g, the pooled sum of the messages of the arrays the region found. -/
def result (c : Dev nD) : S128.Idx → EReal := fun i =>
  pooled (dstCol m c) (batCol m c)
    (msgOf (V m c main_v10) (V m c main_arg1) (V m c main_arg4) (V m c main_arg5) (V m c main_arg6) (V m c main_arg7)
      (V m c main_arg8) (V m c main_arg9) (V m c main_arg10) (V m c main_arg11)) ⟨(i 0).val, (i 0).isLt⟩

/-- The lines after the region compute `result` from what the region left. -/
theorem tail_eq (c : Dev nD) :
    Pipeline.afterTail₀ cfgs (dats m) 0 (V0 m) [hostOps1] c main_v18 = result m c := by
  unfold Pipeline.afterTail₀
  show StableHlo.after hostOps1 _ (Proc.devRef .tc main_v18) = _
  after_results
  have h11 : Pipeline.withArrays (cfgs 0).spec c (V0 m c) (fun w => (dats m 0 c).arrAt w (cfgs 0).N) (Proc.devRef .tc main_v11)
      = found m c := (Pipeline.withArrays_arr spec0 launch0.win.arr_inj c (V0 m c) _ 10).trans (final m c)
  have h3 : Pipeline.withArrays (cfgs 0).spec c (V0 m c) (fun w => (dats m 0 c).arrAt w (cfgs 0).N) (Proc.devRef .tc main_v3)
      = V m c main_v3 :=
    Pipeline.withArrays_of_ne _ c (V0 m c) _ main_v3 (by exact (by decide : ∀ w, Pipeline.arrRef spec0 w ≠ main_v3))
  have ha3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans
      (V_main_arg3 m c)
  rw [h11, h3, ha3]
  funext i
  obtain ⟨g, rfl⟩ : ∃ g : Fin 128, i = ix1 g := ⟨i 0, eq_ix1 i⟩
  rw [dims1, dims2]
  refine (pooled_of_vectors wf1 wf2 _ (fun _ => rfl) _ (fun _ => rfl) _ _ _ g).trans ?_
  -- the vector of messages at e is the array of messages at (e, 0): the same row-major position
  have hmsg : ∀ e : Fin 1600000, shapeCast S1600000 (found m c) shapeCasts_S1600000x1_S1600000 (ix1 e)
      = msgOf (V m c main_v10) (V m c main_arg1) (V m c main_arg4) (V m c main_arg5) (V m c main_arg6) (V m c main_arg7)
          (V m c main_arg8) (V m c main_arg9) (V m c main_arg10) (V m c main_arg11) e := fun e => by
    rw [shapeCast_apply (found m c) shapeCasts_S1600000x1_S1600000 (ix1 e) (ix2 e (0 : Fin 1))
      (by rw [Shape.rowMajor_val_two, Shape.rowMajor_val_one]; show e.val * 1 + 0 = e.val; omega)]
    rfl
  exact congrArg (fun f => pooled (dstCol m c) (batCol m c) f g) (funext hmsg)

/-- The run, read: the result at the pooled sums, every argument array as launched. -/
theorem run : θ_run defs (onTc (τ := τ) (main (F := Ideal))) ⟨m, fun _ => 0, ρ⟩ (fun r => ∀ c : Dev nD,
      r.2.mem ((c.tc : Thread nD τ).loc main_v18) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨((h c).2 main_v18 (Pipeline.mem_restRefs_of main_v18 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 2).trans (((dats m 0 c).arrAt_in 2 rfl _).trans ((A_eq m c 2).trans (V_main_arg4 m c))),
      ((h c).1 3).trans (((dats m 0 c).arrAt_in 3 rfl _).trans ((A_eq m c 3).trans (V_main_arg5 m c))),
      ((h c).1 4).trans (((dats m 0 c).arrAt_in 4 rfl _).trans ((A_eq m c 4).trans (V_main_arg6 m c))),
      ((h c).1 5).trans (((dats m 0 c).arrAt_in 5 rfl _).trans ((A_eq m c 5).trans (V_main_arg7 m c))),
      ((h c).1 6).trans (((dats m 0 c).arrAt_in 6 rfl _).trans ((A_eq m c 6).trans (V_main_arg8 m c))),
      ((h c).1 7).trans (((dats m 0 c).arrAt_in 7 rfl _).trans ((A_eq m c 7).trans (V_main_arg9 m c))),
      ((h c).1 8).trans (((dats m 0 c).arrAt_in 8 rfl _).trans ((A_eq m c 8).trans (V_main_arg10 m c))),
      ((h c).1 9).trans (((dats m 0 c).arrAt_in 9 rfl _).trans ((A_eq m c 9).trans (V_main_arg11 m c)))⟩)
    (run_main m ρ)

end Cert.KernelValue
-- ==== Proof.RefRow.lean ====
/-
  The reference's per-edge message, read at edge e. The reference spells the two-layer perceptron with whole-array host
  operations over all 1,600,000 edges at once: a concatenation of the gathered source rows with the edge attributes, a
  product with the transposed first-layer weights, rows of 16 numbers broadcast down the edges for the bias and the
  normalisation, a maximum with a broadcast zero, a product with the transposed second-layer weights, a broadcast bias.
  Each operation reads, at row e, the same operation of row e of its operands; so element (e, 0) of the result is the
  message of the row that is the gathered source row e followed by attribute row e.
-/
import proofs.«143738_j47880295416471_1_alg».proof.Proof.Gen.ReferenceIdeal.Read
import proofs.«143738_j47880295416471_1_alg».proof.Proof.EdgeRow

noncomputable section

namespace Cert.RefRow

open Cert.ReferenceIdeal Cert.ReferenceIdeal.Gen Cert.ReferenceIdeal.Read Idealize.ShloMosaic Idealize.ShloMosaic.ValueIdx Cert.EdgeRow
open scoped BigOperators

/-- The gathered source rows: the one stage of the reference that depends on the node features, kept as it stands. -/
abbrev gathered (x0 : (⟨S100000x96, .f32⟩ : BufTy).Contents (Elt Ideal)) (x2 : (⟨S2x1600000, .i32⟩ : BufTy).Contents (Elt Ideal)) :
    (⟨S1600000x96, .f32⟩ : BufTy).Contents (Elt Ideal) := val_main_v10 (F := Ideal) x0 x2

/-- The input row of edge e: its gathered source row followed by its attribute row. -/
abbrev inRow (x0 : (⟨S100000x96, .f32⟩ : BufTy).Contents (Elt Ideal)) (x1 : (⟨S1600000x32, .f32⟩ : BufTy).Contents (Elt Ideal))
    (x2 : (⟨S2x1600000, .i32⟩ : BufTy).Contents (Elt Ideal)) (e : Fin 1600000) : Fin 128 → EReal :=
  catRow (fun k => gathered x0 x2 (ix2 e k)) (fun k => x1 (ix2 e k))

/-- Hidden unit j of edge e: the stage after the maximum, at (e, j). -/
theorem hiddenUnit_apply (x0 : (⟨S100000x96, .f32⟩ : BufTy).Contents (Elt Ideal)) (x1 : (⟨S1600000x32, .f32⟩ : BufTy).Contents (Elt Ideal))
    (x2 : (⟨S2x1600000, .i32⟩ : BufTy).Contents (Elt Ideal)) (x4 : (⟨S16x128, .f32⟩ : BufTy).Contents (Elt Ideal))
    (x5 x6 x7 x8 x9 : (⟨S16, .f32⟩ : BufTy).Contents (Elt Ideal)) (e : Fin 1600000) (j : Fin 16) :
    val_main_v32 (F := Ideal) x0 x1 x2 x4 x5 x6 x7 x8 x9 (ix2 e j) = hiddenUnit (inRow x0 x1 x2 e) x4 x5 x6 x7 x8 x9 j := by
  have i14 : idx_main_v14 (idx_main_v15 (ix2 e j)) = ix1 j := funext fun a => Fin.ext (by match a with | ⟨0, _⟩ => rfl)
  have i17 : idx_main_v17 (idx_main_v18 (ix2 e j)) = ix1 j := funext fun a => Fin.ext (by match a with | ⟨0, _⟩ => rfl)
  have i20 : idx_main_v20 (idx_main_v21 (ix2 e j)) = ix1 j := funext fun a => Fin.ext (by match a with | ⟨0, _⟩ => rfl)
  have i26 : idx_main_v26 (idx_main_v27 (ix2 e j)) = ix1 j := funext fun a => Fin.ext (by match a with | ⟨0, _⟩ => rfl)
  have i29 : idx_main_v29 (idx_main_v30 (ix2 e j)) = ix1 j := funext fun a => Fin.ext (by match a with | ⟨0, _⟩ => rfl)
  have il : ∀ k : Fin 128, lidx_main_v13 (ix2 e j) k = ix2 e k := fun k =>
    funext fun a => Fin.ext (by match a with | ⟨0, _⟩ => rfl | ⟨1, _⟩ => rfl)
  have ir : ∀ k : Fin 128, idx_main_v12 (ridx_main_v13 (ix2 e j) k) = ix2 j k := fun k =>
    funext fun a => Fin.ext (by match a with | ⟨0, _⟩ => rfl | ⟨1, _⟩ => rfl)
  rw [val_main_v32_apply, val_main_v31_apply, val_main_v28_apply, val_main_v22_apply, val_main_v21_apply, val_main_v20_apply,
    val_main_v19_apply, val_main_v16_apply, val_main_v13_apply, val_main_v15_apply, val_main_v14_apply, val_main_v18_apply,
    val_main_v17_apply, val_main_v27_apply, val_main_v26_apply, val_main_v25_apply, val_main_v24_apply, val_main_v23_apply,
    val_main_cst_apply, val_main_v30_apply, val_main_v29_apply, val_main_call0_v0_apply, val_main_call0_cst_apply,
    i14, i17, i20, i26, i29]
  unfold hiddenUnit
  simp only [Ideal.addf_def, Ideal.subf_def, Ideal.mulf_def, Ideal.maximumf_def, Ideal.hostUnary_rsqrt_def, Ideal.ofBits_def,
    il, val_main_v12_apply, ir]
  have hc : ∀ k : Fin 128, val_main_v11 (F := Ideal) x0 x1 x2 (ix2 e k) = inRow x0 x1 x2 e k := fun k =>
    concatenate_row_apply (R := 1600000) (val_main_v10 (F := Ideal) x0 x2) x1 _ e k
  simp only [hc]

/-- The message of edge e: the stage after the second bias, at (e, 0). -/
theorem msg_apply (x0 : (⟨S100000x96, .f32⟩ : BufTy).Contents (Elt Ideal)) (x1 : (⟨S1600000x32, .f32⟩ : BufTy).Contents (Elt Ideal))
    (x2 : (⟨S2x1600000, .i32⟩ : BufTy).Contents (Elt Ideal)) (x4 : (⟨S16x128, .f32⟩ : BufTy).Contents (Elt Ideal))
    (x5 x6 x7 x8 x9 : (⟨S16, .f32⟩ : BufTy).Contents (Elt Ideal)) (x10 : (⟨S1x16, .f32⟩ : BufTy).Contents (Elt Ideal))
    (x11 : (⟨S1, .f32⟩ : BufTy).Contents (Elt Ideal)) (e : Fin 1600000) :
    val_main_v37 (F := Ideal) x0 x1 x2 x4 x5 x6 x7 x8 x9 x10 x11 (ix2 e (0 : Fin 1))
      = rowMsg (inRow x0 x1 x2 e) x4 x5 x6 x7 x8 x9 x10 x11 := by
  have i35 : idx_main_v35 (idx_main_v36 (ix2 e (0 : Fin 1))) = ix1 (0 : Fin 1) :=
    funext fun a => Fin.ext (by match a with | ⟨0, _⟩ => rfl)
  have il : ∀ j : Fin 16, lidx_main_v34 (ix2 e (0 : Fin 1)) j = ix2 e j := fun j =>
    funext fun a => Fin.ext (by match a with | ⟨0, _⟩ => rfl | ⟨1, _⟩ => rfl)
  have ir : ∀ j : Fin 16, idx_main_v33 (ridx_main_v34 (ix2 e (0 : Fin 1)) j) = ix2 (0 : Fin 1) j := fun j =>
    funext fun a => Fin.ext (by match a with | ⟨0, _⟩ => rfl | ⟨1, _⟩ => rfl)
  rw [val_main_v37_apply, val_main_v34_apply, val_main_v36_apply, val_main_v35_apply, i35]
  unfold rowMsg
  simp only [Ideal.addf_def, il, val_main_v33_apply, ir, hiddenUnit_apply]

end Cert.RefRow
-- ==== Proof.RefValue.lean ====
/-
  The reference's result, read at graph g. After the per-edge messages [1600000, 1] the reference scatters them into
  zeros [100000, 1] by the target column, scatters that into zeros [128, 1] by the graph column, sums over the one
  trailing column starting from the zero word's number, and divides by the number the word 0x3F800000 denotes. The zero
  word denotes 0 and 0 + x = x; the other word denotes 1 and x / 1 = x for every extended real; the sum over one column
  is its one term. So element g is the pooled sum of the edge messages.
-/
import proofs.«143738_j47880295416471_1_alg».proof.Proof.RefRow
import proofs.«143738_j47880295416471_1_alg».proof.Proof.PoolTail

noncomputable section

namespace Cert.RefValue

open Cert.ReferenceIdeal Cert.ReferenceIdeal.Gen Cert.ReferenceIdeal.Read Idealize.ShloMosaic Idealize.ShloMosaic.ValueIdx
open Cert.EdgeRow Cert.RefRow Cert.PoolTail Cert.SegmentDims
open scoped BigOperators

/-- The zero word denotes 0. -/
theorem zeroWord_eq : zeroWord = 0 := by
  simp [zeroWord, Ideal.ofBits, Ideal.ieee]

/-- The word 0x3F800000 denotes 1. -/
theorem oneWord_eq : Ideal.ofBits .f32 0x3F800000#32 = ((1 : ℝ) : EReal) := by
  simp [Ideal.ofBits, Ideal.ieee, -EReal.coe_mul]; norm_num

/-- Dividing by the number that word denotes changes nothing, infinities included. -/
theorem div_oneWord (x : EReal) : Ideal.div x (Ideal.ofBits .f32 0x3F800000#32) = x := by
  rw [oneWord_eq, Ideal.div_coe (by norm_num : (1 : ℝ) ≠ 0)]
  simp

/-- The two scatters' dimension numbers are those of a segment sum of one-column rows. -/
theorem wf1 : ScatterDims.WF ⟨2, ![100000, 1]⟩ ⟨2, ![1600000, 1]⟩ ⟨2, ![1600000, 1]⟩ [1] [0] [0] 1 :=
  scatter_S100000x1_S1600000x1_S1600000x1_1_0_0_1.wf
theorem wf2 : ScatterDims.WF ⟨2, ![128, 1]⟩ ⟨2, ![100000, 1]⟩ ⟨2, ![100000, 1]⟩ [1] [0] [0] 1 :=
  scatter_S128x1_S100000x1_S100000x1_1_0_0_1.wf
theorem dims1 : scatter_S100000x1_S1600000x1_S1600000x1_1_0_0_1 = rowsDims 100000 1 1600000 wf1 := rfl
theorem dims2 : scatter_S128x1_S100000x1_S100000x1_1_0_0_1 = rowsDims 128 1 100000 wf2 := rfl

/-- Element g of the reference's result is the pooled sum, over the target column and the graph column the reference
    computes from its integer arguments, of the messages of the gathered source rows joined with the attribute rows. -/
theorem result_apply (x0 : (⟨S100000x96, .f32⟩ : BufTy).Contents (Elt Ideal)) (x1 : (⟨S1600000x32, .f32⟩ : BufTy).Contents (Elt Ideal))
    (x2 : (⟨S2x1600000, .i32⟩ : BufTy).Contents (Elt Ideal)) (x3 : (⟨S100000, .i32⟩ : BufTy).Contents (Elt Ideal))
    (x4 : (⟨S16x128, .f32⟩ : BufTy).Contents (Elt Ideal)) (x5 x6 x7 x8 x9 : (⟨S16, .f32⟩ : BufTy).Contents (Elt Ideal))
    (x10 : (⟨S1x16, .f32⟩ : BufTy).Contents (Elt Ideal)) (x11 : (⟨S1, .f32⟩ : BufTy).Contents (Elt Ideal)) (g : Fin 128) :
    val_main_v46 (F := Ideal) x0 x1 x2 x3 x4 x5 x6 x7 x8 x9 x10 x11 (ix1 g)
      = pooled (val_main_v39 (F := Ideal) x2) (val_main_v42 (F := Ideal) x3)
          (msgOf (val_main_v10 (F := Ideal) x0 x2) x1 x4 x5 x6 x7 x8 x9 x10 x11) g := by
  have i44 : idx_main_v44 (ix1 g) (0 : Fin 1) = ix2 g (0 : Fin 1) :=
    funext fun a => Fin.ext (by match a with | ⟨0, _⟩ => rfl | ⟨1, _⟩ => rfl)
  have hz38 : ∀ i, val_main_v38 (F := Ideal) i = zeroWord := fun i => by
    rw [val_main_v38_apply, val_main_cst_1_apply]; rfl
  have hz41 : ∀ i, val_main_v41 (F := Ideal) i = zeroWord := fun i => by
    rw [val_main_v41_apply, val_main_cst_2_apply]; rfl
  have hmsg : (fun e : Fin 1600000 => val_main_v37 (F := Ideal) x0 x1 x2 x4 x5 x6 x7 x8 x9 x10 x11 (ix2 e (0 : Fin 1)))
      = msgOf (val_main_v10 (F := Ideal) x0 x2) x1 x4 x5 x6 x7 x8 x9 x10 x11 :=
    funext fun e => msg_apply x0 x1 x2 x4 x5 x6 x7 x8 x9 x10 x11 e
  have h43 : val_main_v43 (F := Ideal) x0 x1 x2 x3 x4 x5 x6 x7 x8 x9 x10 x11 (ix2 g (0 : Fin 1))
      = pooled (val_main_v39 (F := Ideal) x2) (val_main_v42 (F := Ideal) x3)
          (msgOf (val_main_v10 (F := Ideal) x0 x2) x1 x4 x5 x6 x7 x8 x9 x10 x11) g := by
    unfold val_main_v43 val_main_v40
    rw [dims1, dims2]
    refine (pooled_of_columns wf1 wf2 _ hz38 _ hz41 _ _ _ g).trans ?_
    rw [hmsg]
  rw [val_main_v46_apply, val_main_v44_apply, val_main_v45_apply, val_main_cst_4_apply, val_main_cst_3_apply,
    Fin.sum_univ_one, i44, h43]
  simp only [Ideal.hostDivf_def, Ideal.ofBits_def]
  rw [div_oneWord]
  show zeroWord + _ = _
  rw [zeroWord_eq, zero_add]

end Cert.RefValue
-- ==== Proof.Bridge.lean ====
/-
  The two programs compute one function. Before the messages both apply the same host operations to the same arguments:
  the edge list's first row, with negative numbers wrapped once, gathers the source rows; its second row is the target
  column; the batch vector is the graph column. The kernel program's region then leaves the message of every edge, and
  so does the reference's chain of whole-array operations; and both pool the messages per target node and per graph.
  Hence the two results are equal, element by element, for arguments that agree.
-/
import proofs.«143738_j47880295416471_1_alg».proof.Proof.KernelValue
import proofs.«143738_j47880295416471_1_alg».proof.Proof.RefValue

noncomputable section

open Idealize.ShloMosaic Idealize.ShloMosaic.TcCoe Idealize.SL.Sem Idealize.ShloMosaic.StableHlo

namespace Cert.Bridge

open Cert.KernelIdeal Idealize.ShloMosaic.ValueIdx

variable (m : (ℓ : Loc nD τ sig) → Buf (Elt Ideal) ℓ)

/-- The gathered source rows the region finds are the reference's gather of the same arguments. -/
theorem gathered_eq (c : Dev nD) :
    Gen.V m c main_v10 = Cert.ReferenceIdeal.Read.val_main_v10 (F := Ideal) (m ((c : Thread nD τ).loc main_arg0))
      (m ((c : Thread nD τ).loc main_arg2)) := by
  show StableHlo.after Gen.hostOps0 (fun b => m (c, b)) (Proc.devRef .tc main_v10) = _
  after_results
  rfl

/-- The target numbers computed before the region are the reference's second row of the edge list. -/
theorem targets_eq (c : Dev nD) :
    Gen.V m c main_v3 = Cert.ReferenceIdeal.Read.val_main_v3 (F := Ideal) (m ((c : Thread nD τ).loc main_arg2)) := by
  show StableHlo.after Gen.hostOps0 (fun b => m (c, b)) (Proc.devRef .tc main_v3) = _
  after_results
  rfl

/-- The kernel program's result is the reference's final stage of the same arguments. -/
theorem results_agree (c : Dev nD) :
    Cert.KernelValue.result m c
      = Cert.ReferenceIdeal.Read.val_main_v46 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) := by
  funext i
  obtain ⟨g, rfl⟩ : ∃ g : Fin 128, i = ix1 g := ⟨i 0, eq_ix1 i⟩
  rw [Cert.RefValue.result_apply]
  unfold Cert.KernelValue.result
  have hd : Cert.KernelValue.dstCol m c
      = Cert.ReferenceIdeal.Read.val_main_v39 (F := Ideal) (m ((c : Thread nD τ).loc main_arg2)) := by
    show broadcastInDim _ _ _ (Gen.V m c main_v3) = _
    rw [targets_eq m c]
    rfl
  have hb : Cert.KernelValue.batCol m c
      = Cert.ReferenceIdeal.Read.val_main_v42 (F := Ideal) (m ((c : Thread nD τ).loc main_arg3)) := rfl
  rw [hd, hb, gathered_eq m c, Gen.V_main_arg1 m c, Gen.V_main_arg4 m c, Gen.V_main_arg5 m c, Gen.V_main_arg6 m c, Gen.V_main_arg7 m c,
    Gen.V_main_arg8 m c, Gen.V_main_arg9 m c, Gen.V_main_arg10 m c, Gen.V_main_arg11 m c]
  rfl

end Cert.Bridge
-- ==== Proof.lean ====
/-
  The claim: a Pallas kernel for one layer of edge messages on a graph, against its plain reference.

  For every edge e both programs form the row c_e of 128 numbers, the 96 features of the edge's source node followed
  by the edge's 32 attributes, and the message

      msg_e = (sum over j < 16 of max (gamma_j * ((sum over k < 128 of c_e[k] * W1[j,k]) + b1_j - mean_j)
                                       * rsqrt (var_j + eps) + beta_j, 0) * W2[0,j]) + b2_0 ,

  then add each message to its target node and each node's total to its graph:

      pooled_g = 0 + sum over nodes n of graph g of (0 + sum over edges e into n of msg_e) .

  The kernel program computes the messages in a grid of 320 blocks of 5000 edges, the parameters resident, and keeps
  the sums as vectors; the reference computes them with whole-array operations and keeps a trailing axis of size one,
  which it finally sums over and divides by one. Over the extended reals, with every float operation exact and every
  change of format the identity, both are the same sums of the same terms: no law beyond 0 + x = x, x / 1 = x and
  the reading of a sum over one column as its one term is used, so finiteness of the inputs is never needed. The kernel
  program's frames are the generated ones; the reference's frame is its generated run with the result dropped; the
  ideal pass rewrote nothing, so the preserved statement is the trivial one.
-/
import proofs.«143738_j47880295416471_1_alg».proof.Defs
import proofs.«143738_j47880295416471_1_alg».proof.Proof.Gen.Kernel
import proofs.«143738_j47880295416471_1_alg».proof.Proof.Gen.Kernel.Frame
import proofs.«143738_j47880295416471_1_alg».proof.Proof.Gen.KernelIdeal
import proofs.«143738_j47880295416471_1_alg».proof.Proof.Gen.KernelIdeal.Frame
import proofs.«143738_j47880295416471_1_alg».proof.Proof.Gen.ReferenceIdeal
import proofs.«143738_j47880295416471_1_alg».proof.Proof.Gen.ReferenceIdeal.Run
import proofs.«143738_j47880295416471_1_alg».proof.Proof.Gen.ReferenceIdeal.Read
import proofs.«143738_j47880295416471_1_alg».proof.Proof.Gen.Pre_finite_inputs
import proofs.«143738_j47880295416471_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the pooled sums of the edge messages of arguments that agree. -/
theorem algebraic : Cert.algebraic_KernelIdeal_ReferenceIdeal := by
  intro m ρ m' ρ' _ hagree
  refine ⟨fun c => Cert.KernelValue.result m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.ReferenceIdeal.Read.val_main_v46_eq, a0, a1, a2, a3, a4, a5, a6, a7, a8, a9, a10, a11]
  exact (Cert.Bridge.results_agree m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
